-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S1x8192 : Shape := ⟨2, ![1, 8192]⟩
abbrev S512x8192 : Shape := ⟨2, ![512, 8192]⟩
abbrev S512x1 : Shape := ⟨2, ![512, 1]⟩
abbrev S512 : Shape := ⟨1, ![512]⟩
abbrev S8192 : Shape := ⟨1, ![8192]⟩
abbrev S_ : Shape := ⟨0, ![]⟩
abbrev S1024x2048 : Shape := ⟨2, ![1024, 2048]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 29
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S1x8192, .f32⟩
  | .hbm, ⟨3, _⟩ => ⟨S_, .f32⟩
  | .hbm, ⟨4, _⟩ => ⟨S8192x1, .f32⟩
  | .hbm, ⟨5, _⟩ => ⟨S8192x1, .i1⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S1x8192, .f32⟩
  | .hbm, ⟨15, _⟩ => ⟨S1x8192, .i1⟩
  | .hbm, ⟨16, _⟩ => ⟨S_, .f32⟩
  | .hbm, ⟨17, _⟩ => ⟨S1x8192, .f32⟩
  | .hbm, ⟨18, _⟩ => ⟨S1x8192, .f32⟩
  | .hbm, ⟨19, _⟩ => ⟨S_, .f32⟩
  | .hbm, ⟨20, _⟩ => ⟨S_, .f32⟩
  | .hbm, ⟨21, _⟩ => ⟨S1x8192, .f32⟩
  | .hbm, ⟨22, _⟩ => ⟨S1x8192, .f32⟩
  | .hbm, ⟨23, _⟩ => ⟨S1x8192, .f32⟩
  | .hbm, ⟨24, _⟩ => ⟨S8192x8192, .bf16⟩
  | .hbm, ⟨25, _⟩ => ⟨S8192x8192, .f32⟩
  | .hbm, ⟨26, _⟩ => ⟨S8192x8192, .f32⟩
  | .hbm, ⟨27, _⟩ => ⟨S8192x8192, .bf16⟩
  | .hbm, ⟨28, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1x8192, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1x8192_S1x8192_0_0 : ∀ a, (![0, 0] : Fin 2 → Nat) a + S1x8192.size a ≤ S1x8192.size a
  h_S1x8192 : 0 < S1x8192.numel
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S1x8192_S1x8192 : S1x8192.ShapeCasts S1x8192
  reduces_S512x8192_S8192 : S512x8192.Reduces [0] S8192
  shapeCasts_S8192_S1x8192 : S8192.ShapeCasts S1x8192
  bcast_S_S8192x1 : S_.BroadcastsInDim S8192x1 (![] : Fin 0 → Fin S8192x1.rank)
  bcast_S_S1x8192 : S_.BroadcastsInDim S1x8192 (![] : Fin 0 → Fin S1x8192.rank)
  transposes_S8192x1_S1x8192_1_0 : S8192x1.Transposes [1, 0] S1x8192
  bitsLt_bf16_f32 : FTy.bits .bf16 < FTy.bits .f32
  bcast_S1x8192_S8192x8192_0_1 : S1x8192.BroadcastsInDim S8192x8192 (![0, 1] : Fin 2 → Fin S8192x8192.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x8192.size a
  hwx1_1 : ∀ i : grid1.Coords, EltTy.bits .bf16 = 32 ∨ (Rect.block (s := S8192x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .i1⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_cst_6 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192x8192_S8192_d0 : S8192x8192.ReducesTo [0] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  dot_S8192x8192_S8192x8192_S8192x8192_1_0_0_1_n_n_wf : DotDims.WF S8192x8192 S8192x8192 S8192x8192 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf

class Facts : Prop extends Facts₀ where

variable [Facts]
-- ==== Proof.KR0Runs.lean ====
/-
  Region 0 (the row-and-column-sum kernel, grid of 16 row blocks): what its body's two runs and its frame half
  share — each window's block read off the array contents at entry, the input's staging buffer at its block at
  every point, the reset condition in closed form, the staging memrefs at a point.
-/
import proofs.«170422_j16011638079612_2_alg».proof.Proof.Gen.Kernel.Launch
import proofs.«170422_j16011638079612_2_alg».proof.Proof.Gen.Kernel.Skeleton
import proofs.«170422_j16011638079612_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one branch condition (is this the first row block?), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output, through which its contents are stated. -/
abbrev VO0_1 : View sig .tc .vmem S512x1 .f32 := (Memref.whole cc0_stg1_0 : Memref sig .tc .vmem S512x1 .f32).view
abbrev VO0_2 : View sig .tc .vmem S1x8192 .f32 := (Memref.whole cc0_stg2_0 : Memref sig .tc .vmem S1x8192 .f32).view
/-- Each window's current staging memref at point `t`, and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)

end Cert.Kernel.Hand

end
-- ==== Proof.KR0RunA.lean ====
/-
  Region 0: the body's run at the first row block (the column-sum buffer is reset to zero, then the block's row sums
  and column sums are stored).
-/
import proofs.«170422_j16011638079612_2_alg».proof.Proof.KR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), case A (the reset taken: the first point), with the proof
    that on whole staging memrefs the body runs to the continuation holding the input's buffer as it was and each
    output's with its pieces written. -/
noncomputable def kernelRun0_A (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) :
    Σ' (L1 : List (View.Piece (Elt F) S512x1 .f32)), { L2 : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.KR0RunB.lean ====
/-
  Region 0: the body's run at every later row block (the column-sum buffer holds the running sums; the block's row
  sums are stored and its column sums added).
-/
import proofs.«170422_j16011638079612_2_alg».proof.Proof.KR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), case B (the reset not taken: every later point), with the proof
    that on whole staging memrefs the body runs to the continuation holding the input's buffer as it was and each
    output's with its pieces written. -/
noncomputable def kernelRun0_B (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) :
    Σ' (L1 : List (View.Piece (Elt F) S512x1 .f32)), { L2 : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.KR0Frame.lean ====
/-
  Region 0's frame half at the entry contents `V`: what the two outputs' staging buffers hold after each point
  (the row sums of the point's block; the running column sums, reset at the first point), the proof data, and the
  body obligation at every point.
-/
import proofs.«170422_j16011638079612_2_alg».proof.Proof.KR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- Case A's pieces for the row-sum output cover its block. -/
theorem cover0_A_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) (y : S512x1.Idx) :
    ∃ pc ∈ (kernelRun0_A c i arg1 harg1 arg2 harg2 arg3 harg3 hc0 x0).1, y ∈ pc.1.set :=
  View.cover_of_tiledL (kernelRun0_A c i arg1 harg1 arg2 harg2 arg3 harg3 hc0 x0).1 S512x1.size (by sl_kernel_rfl) y

/-- What case A leaves in the row-sum output's staging buffer: its pieces read back. -/
def out0_A_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) : Vec F S512x1 .f32 :=
  VO0_1.read (Elt F) (VO0_1.writes (Elt F) VO0_1.junk (kernelRun0_A c i arg1 harg1 arg2 harg2 arg3 harg3 hc0 x0).1)

/-- Case A's pieces for the column-sum output cover its block. -/
theorem cover0_A_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) (y : S1x8192.Idx) :
    ∃ pc ∈ (kernelRun0_A c i arg1 harg1 arg2 harg2 arg3 harg3 hc0 x0).2.1, y ∈ pc.1.set :=
  View.cover_of_tiledL (kernelRun0_A c i arg1 harg1 arg2 harg2 arg3 harg3 hc0 x0).2.1 S1x8192.size (by sl_kernel_rfl) y

/-- What case A leaves in the column-sum output's staging buffer: its pieces read back. -/
def out0_A_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) : Vec F S1x8192 .f32 :=
  VO0_2.read (Elt F) (VO0_2.writes (Elt F) VO0_2.junk (kernelRun0_A c i arg1 harg1 arg2 harg2 arg3 harg3 hc0 x0).2.1)

/-- Case B's pieces for the row-sum output cover its block. -/
theorem cover0_B_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) (y : S512x1.Idx) :
    ∃ pc ∈ (kernelRun0_B c i arg1 harg1 arg2 harg2 arg3 harg3 hc0 x0 xo2).1, y ∈ pc.1.set :=
  View.cover_of_tiledL (kernelRun0_B c i arg1 harg1 arg2 harg2 arg3 harg3 hc0 x0 xo2).1 S512x1.size (by sl_kernel_rfl) y

/-- What case B leaves in the row-sum output's staging buffer: its pieces read back. -/
def out0_B_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) : Vec F S512x1 .f32 :=
  VO0_1.read (Elt F) (VO0_1.writes (Elt F) VO0_1.junk (kernelRun0_B c i arg1 harg1 arg2 harg2 arg3 harg3 hc0 x0 xo2).1)

/-- Case B's pieces for the column-sum output cover its block. -/
theorem cover0_B_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) (y : S1x8192.Idx) :
    ∃ pc ∈ (kernelRun0_B c i arg1 harg1 arg2 harg2 arg3 harg3 hc0 x0 xo2).2.1, y ∈ pc.1.set :=
  View.cover_of_tiledL (kernelRun0_B c i arg1 harg1 arg2 harg2 arg3 harg3 hc0 x0 xo2).2.1 S1x8192.size (by sl_kernel_rfl) y

/-- What case B leaves in the column-sum output's staging buffer: its pieces read back. -/
def out0_B_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) : Vec F S1x8192 .f32 :=
  VO0_2.read (Elt F) (VO0_2.writes (Elt F) VO0_2.junk (kernelRun0_B c i arg1 harg1 arg2 harg2 arg3 harg3 hc0 x0 xo2).2.1)

/-! ## What the outputs hold after each point -/

/-- What the two outputs' staging buffers hold after the body at position `n` (row sums, column sums): the first
    point resets, every later point adds to what the point before left in the column-sum buffer. -/
def outsAt0 (c : Dev nD) : (n : ℕ) → n < cfg0.N → Vec F S512x1 .f32 × Vec F S1x8192 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 16 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val % 16 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a later point: over what the point before left. -/
theorem outsAt0_B (c : Dev nD) (t : Fin cfg0.N) (h0 : ¬t.val % 16 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at point
    `t` the input's buffer at its block and the outputs' at `outsAt0`; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a later point the column-sum output's staging buffer holds what the body left at the point before: its one
    buffer is written back after the last point only. -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block; at the first point the reset case runs on whatever the
    outputs' buffers hold; at a later point the column-sum buffer holds what the point before left, so the adding case
    runs; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
/-
  The second pallas_call — the tiled product G = (A · Bᵀ) ∘ (v vᵀ) — on its grid of 8 × 8 × 4 points (i, j, k).
  Point (i, j, k) multiplies the [1024, 2048] tile (i, k) of A by the transpose of the tile (j, k) of B and adds
  the product to a [1024, 1024] accumulator kept in scratch memory: the accumulator is cleared at k = 0, and at
  k = 3 the accumulated tile, scaled entrywise by v(row) · v(column), is stored as tile (i, j) of the result.
  What every run of the body shares is here: each window's block at a point, the two branch conditions in closed
  form over the grid, where the output window is idle, and the names of the staging and scratch buffers.
-/
import proofs.«170422_j16011638079612_2_alg».proof.Proof.Gen.Kernel.Launch
import proofs.«170422_j16011638079612_2_alg».proof.Proof.Gen.Kernel.Skeleton
import proofs.«170422_j16011638079612_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "k = 0": the accumulator is cleared. -/
abbrev cond1_0 (i : grid1.Coords) : Prop := (Scalar.cmpi .ne (Scalar.extui (Scalar.cmpi .eq (BitVec.ofNat 32 (i 2).val) 0#32)) 0#32) = 1#1
/-- It holds at the points ≡ 0 (mod 4): k runs fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the accumulated tile is scaled and stored. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where k ≠ 3 nothing is stored into the result's tile, and the tile is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where k = 3 the result's tile is stored. -/
theorem liveAt1_4 : ∀ t : Fin cfg1.N, cond1_1 (grid1.coords t) → cfg1.idle 4 (grid1.coords t) = false := by decide +kernel

/-! ## The buffers the body is called on -/

/-- One staging buffer of the result's window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scratch buffer of the kernel's own. -/
abbrev scM1 : Memref sig .tc .vmem S1024x1024 .f32 := Memref.whole cc1_scratch0
/-- The same as a view. -/
abbrev VS1 : View sig .tc .vmem S1024x1024 .f32 := scM1.view

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The class invariant spelt out: the other kernel's five staging buffers at anything, the accumulator at anything,
    the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ anyBuf c cc0_stg2_0
          ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.KR1RunA.lean ====
/-
  The body of the tiled product at a point with k = 0: the accumulator is cleared, then the first partial product
  is added to it; nothing is stored into the result's tile.
-/
import proofs.«170422_j16011638079612_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At k = 0, on whole buffers — the four inputs at their blocks, the result's tile at contents handed back
    untouched, the accumulator at anything — the body runs to its end leaving the accumulator written with the
    pieces `LS` (last store first), which the run finds. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, fun xi4 E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.KR1RunB.lean ====
/-
  The body of the tiled product at a point with k = 1 or k = 2: one more partial product is added to the
  accumulator; nothing is stored into the result's tile.
-/
import proofs.«170422_j16011638079612_2_alg».proof.Proof.KR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At 0 < k < 3, on whole buffers — the four inputs at their blocks, the result's tile at contents handed back
    untouched, the accumulator at what the point before left (`xs`) — the body runs to its end leaving the
    accumulator written with the pieces `LS`, which the run finds. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, fun xi4 E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.KR1RunC.lean ====
/-
  The body of the tiled product at a point with k = 3: the last partial product is added to the accumulator and
  the accumulated tile, scaled entrywise by v(row) · v(column), is stored into the result's tile.
-/
import proofs.«170422_j16011638079612_2_alg».proof.Proof.KR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At k = 3, on whole buffers — the four inputs at their blocks, the result's tile at anything, the accumulator
    at what the point before left (`xs`) — the body runs to its end leaving the result's tile written with the
    pieces `L4` and the accumulator with the pieces `LS`, which the run finds. -/
noncomputable def kernelRun1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, ?_, fun E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.KR1Frame.lean ====
/-
  The tiled product's proof data. After point t the accumulator holds the sum of the partial products of the
  points (i, j, 0..k) met so far in the current (i, j) run (`outsAt1`, by recursion on the point: cleared and
  restarted where k = 0, added to elsewhere), and where k = 3 the result's tile holds the scaled accumulator.
  The region's invariant carries the accumulator's contents from one point to the next.
-/
import proofs.«170422_j16011638079612_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the result's tile where nothing is stored into it (k ≠ 3): nothing consults it. -/
def outJunk : Vec F S1024x1024 .f32 := VO1_4.read (Elt F) (VO1_4.writes (Elt F) VO1_4.junk [])

theorem scover1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1024.size (by sl_kernel_rfl) y

/-- What the point leaves in the accumulator where k = 0. -/
def sout1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1024.size (by sl_kernel_rfl) y

/-- What the point leaves in the accumulator where 0 < k < 3, over what the point before left (`xs`). -/
def sout1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

theorem cover1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1024x1024.size (by sl_kernel_rfl) y

/-- What the point leaves in the result's tile where k = 3. -/
def out1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs).1)

theorem scover1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1024.size (by sl_kernel_rfl) y

/-- What the point leaves in the accumulator where k = 3. -/
def sout1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

/-! ## What the result's tile and the accumulator hold after each point -/

/-- After the body at position `n`: (the result's tile, the accumulator). -/
def outsAt1 (c : Dev nD) : (n : ℕ) → n < cfg1.N → Vec F S1024x1024 .f32 × Vec F S1024x1024 .f32
  | 0, hn => (outJunk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (outJunk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outJunk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outJunk, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outJunk, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class invariant (the accumulator at anything); afterwards the accumulator
    at what the point before left, the other kernel's staging buffers at anything, the generator register at some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body each input's buffer at its block and the result's tile at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in;
    the invariant hands the body the accumulator at what the point before left (at anything at the very first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · by_cases h1 : t.val % 4 = 3
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_A V c t h0 h1]
      unfold sout1_A; (try dsimp only)
      by_cases hz : t.val = 0
      · rw [PhiS1_castSucc V c t, PhiS1_zero V c _ _ hz, PhiA1_eq]
        iintro ⟨⟨⟨HA0, HA1, HA2, HA3, HA4, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ hc0 hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA0, HA1, HA2, HA3, HA4, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ hc0 hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C sout1_C; (try dsimp only)
      have hz : t.val ≠ 0 := by omega
      rw [PhiS1_castSucc V c t, PhiS1_pos V c _ _ hz]
      iintro ⟨⟨⟨HA0, HA1, HA2, HA3, HA4, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B; (try dsimp only)
      have hz : t.val ≠ 0 := by omega
      rw [PhiS1_castSucc V c t, PhiS1_pos V c _ _ hz]
      iintro ⟨⟨⟨HA0, HA1, HA2, HA3, HA4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HA0, HA1, HA2, HA3, HA4, HS0⟩, Hg⟩
  isplitl [HA0 HA1 HA2 HA3 HA4 HS0]
  · isplitl [HA0]; · iexact HA0
    isplitl [HA1]; · iexact HA1
    isplitl [HA2]; · iexact HA2
    isplitl [HA3]; · iexact HA3
    isplitl [HA4]; · iexact HA4
    iexists _; iexact HS0
  iexact Hg

end Cert.Kernel.Hand

end
-- ==== Proof.KRun.lean ====
/-
  The whole program as a run: the degree reduction, the host lines that turn the degrees into scales and form the
  two matmul operands, and the tiled product.  The buffers' contents at each boundary are a fold from the launch
  memory: a pallas_call leaves its arrays at what its write-backs make of them and every other buffer as found; a
  stretch of host lines leaves what the lines compute.  Every weakly fair execution terminates; at the end the
  result buffer holds what the tiled product's write-backs leave, and the argument holds its launch contents.
-/
import proofs.«170422_j16011638079612_2_alg».proof.Proof.KR0Frame
import proofs.«170422_j16011638079612_2_alg».proof.Proof.KR1Frame
import proofs.«170422_j16011638079612_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- The same read at the TensorCore's references: what the degree reduction is entered from. -/
abbrev VA : (c : Dev nD) → (b : Ref sig .tc) → Buf (Elt F) ((c : Thread nD τ).loc b) := fun c b => W0 m c b
/-- After the degree reduction: its arrays at what the write-backs leave, every other buffer as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (VA m) c).arrAt w cfg0.N = V1 m c (Pipeline.arrRef spec0 w) :=
  (W1_arr m c w).symm
theorem hrest0 (c : Dev nD) : ∀ b, b ∉ Finset.univ.image (Pipeline.arrRef spec0) → V1 m c b = VA m c b :=
  fun b hb => W1_of_ne m c b fun w e => hb (Finset.mem_image.mpr ⟨w, Finset.mem_univ _, e⟩)

/-- After each of the five stretches of host lines between the two calls. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same read at the TensorCore's references: what the tiled product is entered from. -/
abbrev VB : (c : Dev nD) → (b : Ref sig .tc) → Buf (Elt F) ((c : Thread nD τ).loc b) := fun c b => W6 m c b
/-- After the tiled product. -/
def W7 (c : Dev nD) : Valuation τ sig (Elt F) :=
  Pipeline.withArrays spec1 c (W6 m c) fun w => (dat1 (VB m) c).arrAt w cfg1.N
theorem W7_arr (c : Dev nD) (w : Fin cfg1.W) :
    W7 m c (Proc.devRef .tc (Pipeline.arrRef spec1 w)) = (dat1 (VB m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (VB m) c).arrAt w cfg1.N = V7 m c (Pipeline.arrRef spec1 w) :=
  (W7_arr m c w).symm
theorem hrest1 (c : Dev nD) : ∀ b, b ∉ Finset.univ.image (Pipeline.arrRef spec1) → V7 m c b = VB m c b :=
  fun b hb => W7_of_ne m c b fun w e => hb (Finset.mem_image.mpr ⟨w, Finset.mem_univ _, e⟩)

/-- No host line and no call writes the argument: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (VA m) c).arrAt_in 0 rfl _).trans (A_eq0 (VA m) c 0))
    _ = m ((c : Thread nD τ).loc main_arg0) := rfl

/-! ## The proof data family and the thread state -/

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W7 m c) ∗ ∃ r, prngReg c r)

/-! ## The two calls as segments -/

set_option backward.isDefEq.respectTransparency.types false in
/-- The degree reduction over the thread state: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tiled product over the thread state: entered from `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (VB m) c)
    unfold Pipeline.ΦA
    iintro ⟨Hp, -, Hr⟩
    isplitl [Hr]; · iexact Hr
    iexact Hp
  hout c := by
    refine (hout1 (VB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (V7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters every weakly fair execution of @main terminates, nothing
    faulting; the result buffer ends at what the tiled product's write-backs leave, the argument as launched. -/
theorem run_values (ρ : Dev nD → PrngReg) : θ_run defs (onTc (τ := τ) (main (F := F))) ⟨m, fun _ => 0, ρ⟩ (fun r => ∀ c : Dev nD,
      r.2.mem ((c.tc : Thread nD τ).loc main_v16) = W7 m c (Proc.devRef .tc main_v16)
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v16 (by decide)), (h c _ (mem_uc main_arg0 (by decide))).trans (W7_main_arg0 m c)⟩)

end Cert.Kernel.Hand

end
-- ==== Proof.R0Runs.lean ====
/-
  Region 0 (the row-and-column-sum kernel, grid of 16 row blocks): what its body's two runs and its frame half
  share — each window's block read off the array contents at entry, the input's staging buffer at its block at
  every point, the reset condition in closed form, the staging memrefs at a point.
-/
import proofs.«170422_j16011638079612_2_alg».proof.Proof.Gen.KernelIdeal.Launch
import proofs.«170422_j16011638079612_2_alg».proof.Proof.Gen.KernelIdeal.Skeleton
import proofs.«170422_j16011638079612_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one branch condition (is this the first row block?), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output, through which its contents are stated. -/
abbrev VO0_1 : View sig .tc .vmem S512x1 .f32 := (Memref.whole cc0_stg1_0 : Memref sig .tc .vmem S512x1 .f32).view
abbrev VO0_2 : View sig .tc .vmem S1x8192 .f32 := (Memref.whole cc0_stg2_0 : Memref sig .tc .vmem S1x8192 .f32).view
/-- Each window's current staging memref at point `t`, and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)

end Cert.KernelIdeal.Hand

end
-- ==== Proof.R0RunA.lean ====
/-
  Region 0: the body's run at the first row block (the column-sum buffer is reset to zero, then the block's row sums
  and column sums are stored).
-/
import proofs.«170422_j16011638079612_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), case A (the reset taken: the first point), with the proof
    that on whole staging memrefs the body runs to the continuation holding the input's buffer as it was and each
    output's with its pieces written. -/
noncomputable def kernelRun0_A (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) :
    Σ' (L1 : List (View.Piece (Elt F) S512x1 .f32)), { L2 : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.R0RunB.lean ====
/-
  Region 0: the body's run at every later row block (the column-sum buffer holds the running sums; the block's row
  sums are stored and its column sums added).
-/
import proofs.«170422_j16011638079612_2_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), case B (the reset not taken: every later point), with the proof
    that on whole staging memrefs the body runs to the continuation holding the input's buffer as it was and each
    output's with its pieces written. -/
noncomputable def kernelRun0_B (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) :
    Σ' (L1 : List (View.Piece (Elt F) S512x1 .f32)), { L2 : List (View.Piece (Elt F) S1x8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.R0Frame.lean ====
/-
  Region 0's frame half at the entry contents `V`: what the two outputs' staging buffers hold after each point
  (the row sums of the point's block; the running column sums, reset at the first point), the proof data, and the
  body obligation at every point.
-/
import proofs.«170422_j16011638079612_2_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- Case A's pieces for the row-sum output cover its block. -/
theorem cover0_A_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) (y : S512x1.Idx) :
    ∃ pc ∈ (kernelRun0_A c i arg1 harg1 arg2 harg2 arg3 harg3 hc0 x0).1, y ∈ pc.1.set :=
  View.cover_of_tiledL (kernelRun0_A c i arg1 harg1 arg2 harg2 arg3 harg3 hc0 x0).1 S512x1.size (by sl_kernel_rfl) y

/-- What case A leaves in the row-sum output's staging buffer: its pieces read back. -/
def out0_A_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) : Vec F S512x1 .f32 :=
  VO0_1.read (Elt F) (VO0_1.writes (Elt F) VO0_1.junk (kernelRun0_A c i arg1 harg1 arg2 harg2 arg3 harg3 hc0 x0).1)

/-- Case A's pieces for the column-sum output cover its block. -/
theorem cover0_A_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) (y : S1x8192.Idx) :
    ∃ pc ∈ (kernelRun0_A c i arg1 harg1 arg2 harg2 arg3 harg3 hc0 x0).2.1, y ∈ pc.1.set :=
  View.cover_of_tiledL (kernelRun0_A c i arg1 harg1 arg2 harg2 arg3 harg3 hc0 x0).2.1 S1x8192.size (by sl_kernel_rfl) y

/-- What case A leaves in the column-sum output's staging buffer: its pieces read back. -/
def out0_A_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : cond0_0 i)
    (x0 : Vec F S512x8192 .f32) : Vec F S1x8192 .f32 :=
  VO0_2.read (Elt F) (VO0_2.writes (Elt F) VO0_2.junk (kernelRun0_A c i arg1 harg1 arg2 harg2 arg3 harg3 hc0 x0).2.1)

/-- Case B's pieces for the row-sum output cover its block. -/
theorem cover0_B_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) (y : S512x1.Idx) :
    ∃ pc ∈ (kernelRun0_B c i arg1 harg1 arg2 harg2 arg3 harg3 hc0 x0 xo2).1, y ∈ pc.1.set :=
  View.cover_of_tiledL (kernelRun0_B c i arg1 harg1 arg2 harg2 arg3 harg3 hc0 x0 xo2).1 S512x1.size (by sl_kernel_rfl) y

/-- What case B leaves in the row-sum output's staging buffer: its pieces read back. -/
def out0_B_1 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) : Vec F S512x1 .f32 :=
  VO0_1.read (Elt F) (VO0_1.writes (Elt F) VO0_1.junk (kernelRun0_B c i arg1 harg1 arg2 harg2 arg3 harg3 hc0 x0 xo2).1)

/-- Case B's pieces for the column-sum output cover its block. -/
theorem cover0_B_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) (y : S1x8192.Idx) :
    ∃ pc ∈ (kernelRun0_B c i arg1 harg1 arg2 harg2 arg3 harg3 hc0 x0 xo2).2.1, y ∈ pc.1.set :=
  View.cover_of_tiledL (kernelRun0_B c i arg1 harg1 arg2 harg2 arg3 harg3 hc0 x0 xo2).2.1 S1x8192.size (by sl_kernel_rfl) y

/-- What case B leaves in the column-sum output's staging buffer: its pieces read back. -/
def out0_B_2 (c : Dev nD) (i : grid0.Coords) (arg1 : Memref sig .tc .vmem S512x8192 .f32) (harg1 : arg1.IsWhole) (arg2 : Memref sig .tc .vmem S512x1 .f32) (harg2 : arg2.IsWhole) (arg3 : Memref sig .tc .vmem S1x8192 .f32) (harg3 : arg3.IsWhole) (hc0 : ¬cond0_0 i)
    (x0 : Vec F S512x8192 .f32) (xo2 : Vec F S1x8192 .f32) : Vec F S1x8192 .f32 :=
  VO0_2.read (Elt F) (VO0_2.writes (Elt F) VO0_2.junk (kernelRun0_B c i arg1 harg1 arg2 harg2 arg3 harg3 hc0 x0 xo2).2.1)

/-! ## What the outputs hold after each point -/

/-- What the two outputs' staging buffers hold after the body at position `n` (row sums, column sums): the first
    point resets, every later point adds to what the point before left in the column-sum buffer. -/
def outsAt0 (c : Dev nD) : (n : ℕ) → n < cfg0.N → Vec F S512x1 .f32 × Vec F S1x8192 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 16 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val % 16 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a later point: over what the point before left. -/
theorem outsAt0_B (c : Dev nD) (t : Fin cfg0.N) (h0 : ¬t.val % 16 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at point
    `t` the input's buffer at its block and the outputs' at `outsAt0`; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a later point the column-sum output's staging buffer holds what the body left at the point before: its one
    buffer is written back after the last point only. -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block; at the first point the reset case runs on whatever the
    outputs' buffers hold; at a later point the column-sum buffer holds what the point before left, so the adding case
    runs; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/-
  The second pallas_call — the tiled product G = (A · Bᵀ) ∘ (v vᵀ) — on its grid of 8 × 8 × 4 points (i, j, k).
  Point (i, j, k) multiplies the [1024, 2048] tile (i, k) of A by the transpose of the tile (j, k) of B and adds
  the product to a [1024, 1024] accumulator kept in scratch memory: the accumulator is cleared at k = 0, and at
  k = 3 the accumulated tile, scaled entrywise by v(row) · v(column), is stored as tile (i, j) of the result.
  What every run of the body shares is here: each window's block at a point, the two branch conditions in closed
  form over the grid, where the output window is idle, and the names of the staging and scratch buffers.
-/
import proofs.«170422_j16011638079612_2_alg».proof.Proof.Gen.KernelIdeal.Launch
import proofs.«170422_j16011638079612_2_alg».proof.Proof.Gen.KernelIdeal.Skeleton
import proofs.«170422_j16011638079612_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "k = 0": the accumulator is cleared. -/
abbrev cond1_0 (i : grid1.Coords) : Prop := (Scalar.cmpi .ne (Scalar.extui (Scalar.cmpi .eq (BitVec.ofNat 32 (i 2).val) 0#32)) 0#32) = 1#1
/-- It holds at the points ≡ 0 (mod 4): k runs fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the accumulated tile is scaled and stored. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where k ≠ 3 nothing is stored into the result's tile, and the tile is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where k = 3 the result's tile is stored. -/
theorem liveAt1_4 : ∀ t : Fin cfg1.N, cond1_1 (grid1.coords t) → cfg1.idle 4 (grid1.coords t) = false := by decide +kernel

/-! ## The buffers the body is called on -/

/-- One staging buffer of the result's window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scratch buffer of the kernel's own. -/
abbrev scM1 : Memref sig .tc .vmem S1024x1024 .f32 := Memref.whole cc1_scratch0
/-- The same as a view. -/
abbrev VS1 : View sig .tc .vmem S1024x1024 .f32 := scM1.view

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The class invariant spelt out: the other kernel's five staging buffers at anything, the accumulator at anything,
    the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ anyBuf c cc0_stg2_0
          ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.R1RunA.lean ====
/-
  The body of the tiled product at a point with k = 0: the accumulator is cleared, then the first partial product
  is added to it; nothing is stored into the result's tile.
-/
import proofs.«170422_j16011638079612_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At k = 0, on whole buffers — the four inputs at their blocks, the result's tile at contents handed back
    untouched, the accumulator at anything — the body runs to its end leaving the accumulator written with the
    pieces `LS` (last store first), which the run finds. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, fun xi4 E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.R1RunB.lean ====
/-
  The body of the tiled product at a point with k = 1 or k = 2: one more partial product is added to the
  accumulator; nothing is stored into the result's tile.
-/
import proofs.«170422_j16011638079612_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At 0 < k < 3, on whole buffers — the four inputs at their blocks, the result's tile at contents handed back
    untouched, the accumulator at what the point before left (`xs`) — the body runs to its end leaving the
    accumulator written with the pieces `LS`, which the run finds. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, fun xi4 E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.R1RunC.lean ====
/-
  The body of the tiled product at a point with k = 3: the last partial product is added to the accumulator and
  the accumulated tile, scaled entrywise by v(row) · v(column), is stored into the result's tile.
-/
import proofs.«170422_j16011638079612_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At k = 3, on whole buffers — the four inputs at their blocks, the result's tile at anything, the accumulator
    at what the point before left (`xs`) — the body runs to its end leaving the result's tile written with the
    pieces `L4` and the accumulator with the pieces `LS`, which the run finds. -/
noncomputable def kernelRun1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__g_kernel i arg3 harg3 arg4 harg4 arg5 harg5 arg6 harg6 arg7 harg7 arg8 harg8) K } := by
  refine ⟨?_, ?_, fun E K => ?run⟩
  case run =>
    simp only [cc1__g_kernel_eq_skeleton]; unfold cc1__g_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.R1Frame.lean ====
/-
  The tiled product's proof data. After point t the accumulator holds the sum of the partial products of the
  points (i, j, 0..k) met so far in the current (i, j) run (`outsAt1`, by recursion on the point: cleared and
  restarted where k = 0, added to elsewhere), and where k = 3 the result's tile holds the scaled accumulator.
  The region's invariant carries the accumulator's contents from one point to the next.
-/
import proofs.«170422_j16011638079612_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the result's tile where nothing is stored into it (k ≠ 3): nothing consults it. -/
def outJunk : Vec F S1024x1024 .f32 := VO1_4.read (Elt F) (VO1_4.writes (Elt F) VO1_4.junk [])

theorem scover1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1024.size (by sl_kernel_rfl) y

/-- What the point leaves in the accumulator where k = 0. -/
def sout1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1024.size (by sl_kernel_rfl) y

/-- What the point leaves in the accumulator where 0 < k < 3, over what the point before left (`xs`). -/
def sout1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

theorem cover1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1024x1024.size (by sl_kernel_rfl) y

/-- What the point leaves in the result's tile where k = 3. -/
def out1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs).1)

theorem scover1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1024.size (by sl_kernel_rfl) y

/-- What the point leaves in the accumulator where k = 3. -/
def sout1_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

/-! ## What the result's tile and the accumulator hold after each point -/

/-- After the body at position `n`: (the result's tile, the accumulator). -/
def outsAt1 (c : Dev nD) : (n : ℕ) → n < cfg1.N → Vec F S1024x1024 .f32 × Vec F S1024x1024 .f32
  | 0, hn => (outJunk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (outJunk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outJunk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outJunk, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outJunk, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class invariant (the accumulator at anything); afterwards the accumulator
    at what the point before left, the other kernel's staging buffers at anything, the generator register at some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg1_1 ∗ anyBuf c cc0_stg2_0 ∗ owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body each input's buffer at its block and the result's tile at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in;
    the invariant hands the body the accumulator at what the point before left (at anything at the very first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · by_cases h1 : t.val % 4 = 3
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_A V c t h0 h1]
      unfold sout1_A; (try dsimp only)
      by_cases hz : t.val = 0
      · rw [PhiS1_castSucc V c t, PhiS1_zero V c _ _ hz, PhiA1_eq]
        iintro ⟨⟨⟨HA0, HA1, HA2, HA3, HA4, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ hc0 hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HA0, HA1, HA2, HA3, HA4, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ hc0 hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C sout1_C; (try dsimp only)
      have hz : t.val ≠ 0 := by omega
      rw [PhiS1_castSucc V c t, PhiS1_pos V c _ _ hz]
      iintro ⟨⟨⟨HA0, HA1, HA2, HA3, HA4, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B; (try dsimp only)
      have hz : t.val ≠ 0 := by omega
      rw [PhiS1_castSucc V c t, PhiS1_pos V c _ _ hz]
      iintro ⟨⟨⟨HA0, HA1, HA2, HA3, HA4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HA0, HA1, HA2, HA3, HA4, HS0⟩, Hg⟩
  isplitl [HA0 HA1 HA2 HA3 HA4 HS0]
  · isplitl [HA0]; · iexact HA0
    isplitl [HA1]; · iexact HA1
    isplitl [HA2]; · iexact HA2
    isplitl [HA3]; · iexact HA3
    isplitl [HA4]; · iexact HA4
    iexists _; iexact HS0
  iexact Hg

end Cert.KernelIdeal.Hand

end
-- ==== Proof.Run.lean ====
/-
  The whole program as a run: the degree reduction, the host lines that turn the degrees into scales and form the
  two matmul operands, and the tiled product.  The buffers' contents at each boundary are a fold from the launch
  memory: a pallas_call leaves its arrays at what its write-backs make of them and every other buffer as found; a
  stretch of host lines leaves what the lines compute.  Every weakly fair execution terminates; at the end the
  result buffer holds what the tiled product's write-backs leave, and the argument holds its launch contents.
-/
import proofs.«170422_j16011638079612_2_alg».proof.Proof.R0Frame
import proofs.«170422_j16011638079612_2_alg».proof.Proof.R1Frame
import proofs.«170422_j16011638079612_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- The same read at the TensorCore's references: what the degree reduction is entered from. -/
abbrev VA : (c : Dev nD) → (b : Ref sig .tc) → Buf (Elt F) ((c : Thread nD τ).loc b) := fun c b => W0 m c b
/-- After the degree reduction: its arrays at what the write-backs leave, every other buffer as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (VA m) c).arrAt w cfg0.N = V1 m c (Pipeline.arrRef spec0 w) :=
  (W1_arr m c w).symm
theorem hrest0 (c : Dev nD) : ∀ b, b ∉ Finset.univ.image (Pipeline.arrRef spec0) → V1 m c b = VA m c b :=
  fun b hb => W1_of_ne m c b fun w e => hb (Finset.mem_image.mpr ⟨w, Finset.mem_univ _, e⟩)

/-- After each of the five stretches of host lines between the two calls. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same read at the TensorCore's references: what the tiled product is entered from. -/
abbrev VB : (c : Dev nD) → (b : Ref sig .tc) → Buf (Elt F) ((c : Thread nD τ).loc b) := fun c b => W6 m c b
/-- After the tiled product. -/
def W7 (c : Dev nD) : Valuation τ sig (Elt F) :=
  Pipeline.withArrays spec1 c (W6 m c) fun w => (dat1 (VB m) c).arrAt w cfg1.N
theorem W7_arr (c : Dev nD) (w : Fin cfg1.W) :
    W7 m c (Proc.devRef .tc (Pipeline.arrRef spec1 w)) = (dat1 (VB m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (VB m) c).arrAt w cfg1.N = V7 m c (Pipeline.arrRef spec1 w) :=
  (W7_arr m c w).symm
theorem hrest1 (c : Dev nD) : ∀ b, b ∉ Finset.univ.image (Pipeline.arrRef spec1) → V7 m c b = VB m c b :=
  fun b hb => W7_of_ne m c b fun w e => hb (Finset.mem_image.mpr ⟨w, Finset.mem_univ _, e⟩)

/-- No host line and no call writes the argument: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (VA m) c).arrAt_in 0 rfl _).trans (A_eq0 (VA m) c 0))
    _ = m ((c : Thread nD τ).loc main_arg0) := rfl

/-! ## The proof data family and the thread state -/

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W7 m c) ∗ ∃ r, prngReg c r)

/-! ## The two calls as segments -/

set_option backward.isDefEq.respectTransparency.types false in
/-- The degree reduction over the thread state: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tiled product over the thread state: entered from `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (VB m) c)
    unfold Pipeline.ΦA
    iintro ⟨Hp, -, Hr⟩
    isplitl [Hr]; · iexact Hr
    iexact Hp
  hout c := by
    refine (hout1 (VB m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (V7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters every weakly fair execution of @main terminates, nothing
    faulting; the result buffer ends at what the tiled product's write-backs leave, the argument as launched. -/
theorem run_values (ρ : Dev nD → PrngReg) : θ_run defs (onTc (τ := τ) (main (F := F))) ⟨m, fun _ => 0, ρ⟩ (fun r => ∀ c : Dev nD,
      r.2.mem ((c.tc : Thread nD τ).loc main_v16) = W7 m c (Proc.devRef .tc main_v16)
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v16 (by decide)), (h c _ (mem_uc main_arg0 (by decide))).trans (W7_main_arg0 m c)⟩)

end Cert.KernelIdeal.Hand

end
-- ==== Proof.R1Pieces.lean ====
/-
  What one point of the tiled product leaves, as values: the accumulator ends at the point's partial product added
  to what it held (to zero where k = 0), and where k = 3 the result's tile is that accumulator scaled entrywise.
-/
import proofs.«170422_j16011638079612_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzP : (![0, 0] : Fin 2 → Nat) = fun _ => 0 := funext fun a => by fin_cases a <;> rfl

/-- Where 0 < k < 3: the accumulator `xs` plus the product of the two tiles. -/
theorem sout_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x2048 .bf16) (x1 : Vec F S1024x2048 .bf16) (x2 : Vec F S1024x1 .f32) (x3 : Vec F S1x1024 .f32) (xs : Vec F S1024x1024 .f32) :
    sout1_B c i arg3 harg3 arg4 harg4 arg5 harg5 arg6 harg6 arg7 harg7 arg8 harg8 hc0 hc1 x0 x1 x2 x3 xs = k1_pay2 x0 x1 xs := by
  unfold sout1_B
  rw [View.read_writes_eq_canon _ _ _ (scover1_B c i arg3 harg3 arg4 harg4 arg5 harg5 arg6 harg6 arg7 harg7 arg8 harg8 hc0 hc1 x0 x1 x2 x3 xs)]
  unfold kernelRun1_B
  dsimp only
  rw [View.canon_unit_zero hzP]
  simp only [View.readAt_eq_ld, harg3.read_unread, harg4.read_unread, harg8.read_unread, View.ld_unit_zero (S := S1024x2048) hzP, View.ld_unit_zero (S := S1024x1024) hzP]

/-- Where k = 0: the zero tile plus the product of the two tiles. -/
theorem sout_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x2048 .bf16) (x1 : Vec F S1024x2048 .bf16) (x2 : Vec F S1024x1 .f32) (x3 : Vec F S1x1024 .f32) :
    sout1_A c i arg3 harg3 arg4 harg4 arg5 harg5 arg6 harg6 arg7 harg7 arg8 harg8 hc0 hc1 x0 x1 x2 x3 = k1_pay2 x0 x1 (k1_pay1 (F := F)) := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hzP, View.readCov_unit_zero (S := S1024x1024) _ hzP]
  simp only [View.readAt_eq_ld, harg3.read_unread, harg4.read_unread, View.ld_unit_zero (S := S1024x2048) hzP, View.ld_unit_zero (S := S1024x1024) hzP]

/-- Where k = 3: the accumulator as at the other points, -/
theorem sout_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) :
    sout1_C c i arg3 harg3 arg4 harg4 arg5 harg5 arg6 harg6 arg7 harg7 arg8 harg8 hc0 hc1 x0 x1 x2 x3 xs = k1_pay2 x0 x1 xs := by
  unfold sout1_C
  rw [View.read_writes_eq_canon _ _ _ (scover1_C c i arg3 harg3 arg4 harg4 arg5 harg5 arg6 harg6 arg7 harg7 arg8 harg8 hc0 hc1 x0 x1 x2 x3 xs)]
  unfold kernelRun1_C
  dsimp only
  sl_unfold_words
  rw [View.canon_unit_zero hzP]
  simp only [View.readAt_eq_ld, harg3.read_unread, harg4.read_unread, harg8.read_unread, View.ld_unit_zero (S := S1024x2048) hzP, View.ld_unit_zero (S := S1024x1024) hzP]

/-- and the result's tile the scaled accumulator. -/
theorem out_C (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x2048 .bf16) (x1 : Vec F S1024x2048 .bf16) (x2 : Vec F S1024x1 .f32) (x3 : Vec F S1x1024 .f32) (xs : Vec F S1024x1024 .f32) :
    out1_C c i arg3 harg3 arg4 harg4 arg5 harg5 arg6 harg6 arg7 harg7 arg8 harg8 hc0 hc1 x0 x1 x2 x3 xs = k1_pay3 x2 x3 (k1_pay2 x0 x1 xs) := by
  unfold out1_C
  rw [View.read_writes_eq_canon _ _ _ (cover1_C c i arg3 harg3 arg4 harg4 arg5 harg5 arg6 harg6 arg7 harg7 arg8 harg8 hc0 hc1 x0 x1 x2 x3 xs)]
  unfold kernelRun1_C
  dsimp only
  sl_unfold_words
  rw [View.canon_unit_zero hzP, View.readCov_unit_zero (S := S1024x1024) _ hzP]
  simp only [View.readAt_eq_ld, harg3.read_unread, harg4.read_unread, harg5.read_unread, harg6.read_unread, harg8.read_unread, View.ld_unit_zero (S := S1024x2048) hzP, View.ld_unit_zero (S := S1024x1024) hzP, View.ld_unit_zero (S := S1024x1) hzP, View.ld_unit_zero (S := S1x1024) hzP]

end Cert.KernelIdeal.Hand

end
-- ==== Proof.TilePay.lean ====
/-
  One grid point of the tiled product, read at an entry (r, s) of its 1024 × 1024 tile.

  The accumulator starts at 0.  Each step along the contracted axis adds, to entry (r, s), the sum over the 2048
  columns of the current tiles of A(r, ·) · B(s, ·): the product of a tile of A with the transpose of a tile of B.  At
  the last step the entry is scaled by v(r) · v(s), the two node scales read from a column and a row.  The last two
  facts regroup a sum over 8192 indices as four consecutive runs of 2048, and a sum of four terms as the running total
  ((g 0 + g 1) + g 2) + g 3.
-/
import proofs.«170422_j16011638079612_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The accumulator's first value: 0 at every entry. -/
theorem tpay1_apply (r s : Fin 1024) : k1_pay1 (F := Ideal) (ix2 r s) = 0 := by
  unfold k1_pay1
  rw [shapeCast_self]
  exact Ideal.ofBits_zero_f32

/-- The contraction of the product read at its first coordinate: the left tile's row is the entry's row. -/
theorem tile_lhs_0 (i : S1024x1024.Idx) (c : dot_S1024x2048_S1024x2048_S1024x1024_1_1_0_0_n_n.contr.Idx) :
    (dot_S1024x2048_S1024x2048_S1024x1024_1_1_0_0_n_n.lhsIdx i c 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The right tile's row is the entry's column. -/
theorem tile_rhs_0 (i : S1024x1024.Idx) (c : dot_S1024x2048_S1024x2048_S1024x1024_1_1_0_0_n_n.contr.Idx) :
    (dot_S1024x2048_S1024x2048_S1024x1024_1_1_0_0_n_n.rhsIdx i c 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- One step of the accumulation: entry (r, s) gains the sum over k of A(r,k) · B(s,k). -/
theorem tpay2_apply (x0 x1 : Vec Ideal S1024x2048 .bf16) (acc : Vec Ideal S1024x1024 .f32) (r s : Fin 1024) :
    k1_pay2 x0 x1 acc (ix2 r s) = acc (ix2 r s) + ∑ k : Fin 2048, x0 (ix2 r k) * x1 (ix2 s k) := by
  unfold k1_pay2
  rw [shapeCast_self, shapeCast_self, shapeCast_self]
  refine congrArg (acc (ix2 r s) + ·) ?_
  refine (Ideal.matmul_constant_zero_apply (φ₁ := .bf16) (φ₂ := .bf16) dot_S1024x2048_S1024x2048_S1024x1024_1_1_0_0_n_n none x0 x1 (ix2 r s)).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 r s)
      ((contrEquiv1 dot_S1024x2048_S1024x2048_S1024x1024_1_1_0_0_n_n 2048 rfl rfl).symm k) = ix2 r k :=
    funext fun a => Fin.ext (by
      match a with
      | ⟨0, _⟩ => exact tile_lhs_0 _ _
      | ⟨1, _⟩ => exact (dot_S1024x2048_S1024x2048_S1024x1024_1_1_0_0_n_n.lhsIdx_val_of_single rfl _ _).trans hk)
  have er : dot_S1024x2048_S1024x2048_S1024x1024_1_1_0_0_n_n.rhsIdx (ix2 r s)
      ((contrEquiv1 dot_S1024x2048_S1024x2048_S1024x1024_1_1_0_0_n_n 2048 rfl rfl).symm k) = ix2 s k :=
    funext fun a => Fin.ext (by
      match a with
      | ⟨0, _⟩ => exact tile_rhs_0 _ _
      | ⟨1, _⟩ => exact (dot_S1024x2048_S1024x2048_S1024x1024_1_1_0_0_n_n.rhsIdx_val_of_single rfl _ _).trans hk)
  rw [el, er]

/-- A column of 1024 entries broadcast along the rows reads, at (r, s), the column's entry r. -/
theorem broadcastTo_a1_ab_apply {α : Type} (v : S1024x1.Idx → α) (h : S1024x1.Broadcasts S1024x1024) (r s : Fin 1024) :
    broadcastTo S1024x1024 v h (ix2 r s) = v (ix2 r (0 : Fin 1)) := by
  refine broadcastTo_apply v h (ix2 r s) (ix2 r (0 : Fin 1)) fun ax => ?_
  match ax with
  | ⟨0, _⟩ => show r.val = if (1024 : Nat) = 1 then 0 else r.val; rw [if_neg (by decide)]
  | ⟨1, _⟩ => show (0 : Nat) = if (1 : Nat) = 1 then 0 else s.val; rw [if_pos rfl]

/-- The closing scale: entry (r, s) of the accumulator times v(r) · v(s). -/
theorem tpay3_apply (x2 : Vec Ideal S1024x1 .f32) (x3 : Vec Ideal S1x1024 .f32) (acc : Vec Ideal S1024x1024 .f32)
    (r s : Fin 1024) :
    k1_pay3 x2 x3 acc (ix2 r s) = acc (ix2 r s) * (x2 (ix2 r (0 : Fin 1)) * x3 (ix2 (0 : Fin 1) s)) := by
  unfold k1_pay3
  rw [shapeCast_self, shapeCast_self]
  show acc (ix2 r s) * (broadcastTo S1024x1024 x2 broadcasts_S1024x1_S1024x1024 (ix2 r s)
      * broadcastTo S1024x1024 x3 broadcasts_S1x1024_S1024x1024 (ix2 r s)) = _
  rw [broadcastTo_a1_ab_apply, broadcastTo_1b_ab_apply]

/-- An index below 8192 is a run number below 4 and a position below 2048 inside the run. -/
def tileEquiv : Fin 4 × Fin 2048 ≃ Fin 8192 where
  toFun x := ⟨x.1.val * 2048 + x.2.val, by omega⟩
  invFun k := (⟨k.val / 2048, by omega⟩, ⟨k.val % 2048, by omega⟩)
  left_inv x := Prod.ext
    (Fin.ext (by show (x.1.val * 2048 + x.2.val) / 2048 = x.1.val; omega))
    (Fin.ext (by show (x.1.val * 2048 + x.2.val) % 2048 = x.2.val; omega))
  right_inv k := Fin.ext (by show k.val / 2048 * 2048 + k.val % 2048 = k.val; omega)

/-- A sum over 8192 indices is the sum of four consecutive runs of 2048. -/
theorem sum_tiles {M : Type} [AddCommMonoid M] (f : Fin 8192 → M) :
    ∑ k : Fin 8192, f k = ∑ kb : Fin 4, ∑ kk : Fin 2048, f ⟨kb.val * 2048 + kk.val, by omega⟩ :=
  calc ∑ k : Fin 8192, f k
      = ∑ x : Fin 4 × Fin 2048, f (tileEquiv x) := (Fintype.sum_equiv tileEquiv _ _ fun _ => rfl).symm
    _ = ∑ kb : Fin 4, ∑ kk : Fin 2048, f ⟨kb.val * 2048 + kk.val, by omega⟩ :=
        Fintype.sum_prod_type' fun (kb : Fin 4) (kk : Fin 2048) => f ⟨kb.val * 2048 + kk.val, by omega⟩

/-- A sum of four terms as a running total from the first. -/
theorem sum_range_tiles {M : Type} [AddCommMonoid M] (g : ℕ → M) :
    ∑ kb : Fin 4, g kb.val = ((g 0 + g 1) + g 2) + g 3 := by
  rw [Fin.sum_univ_four]
  rfl

end Cert.KernelIdeal.Hand

end
-- ==== Proof.R1Value.lean ====
/-
  What the tiled product leaves in the result array, over the extended reals.  Write A, B for the two matmul
  operands and v, w for the column of row scales and the row of column scales.  After point (i, j, k) the
  accumulator holds, at (r, s), the sum over the K-tiles 0..k of Σ_kk A(1024 i + r, 2048 kb + kk) · B(1024 j + s,
  2048 kb + kk) — by induction on the point, the sum restarting where k = 0 —, and where k = 3 the tile (i, j) of the
  result is that sum times v(1024 i + r) · w(1024 j + s).  The 64 tiles cover the array, so the array ends holding
  (Σ_k A(p, k) · B(q, k)) · (v(p) · w(q)) at every (p, q).
-/
import proofs.«170422_j16011638079612_2_alg».proof.Proof.R1Pieces
import proofs.«170422_j16011638079612_2_alg».proof.Proof.TilePay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## Arrays read at natural-number coordinates -/

/-- A square array at (a, b), zero outside. -/
def nat2 (X : S8192x8192.Idx → EReal) (a b : ℕ) : EReal := if h : a < 8192 ∧ b < 8192 then X (ix2 ⟨a, h.1⟩ ⟨b, h.2⟩) else 0
/-- A column at a. -/
def natC (x : S8192x1.Idx → EReal) (a : ℕ) : EReal := if h : a < 8192 then x (ix2 ⟨a, h⟩ (0 : Fin 1)) else 0
/-- A row at b. -/
def natR (x : S1x8192.Idx → EReal) (b : ℕ) : EReal := if h : b < 8192 then x (ix2 (0 : Fin 1) ⟨b, h⟩) else 0

/-- The sum of the first `n` K-tiles' products at row a of A and row b of B. -/
def tiles (A B : S8192x8192.Idx → EReal) (a b n : ℕ) : EReal :=
  ∑ kb ∈ Finset.range n, ∑ kk : Fin 2048, nat2 A a (kb * 2048 + kk.val) * nat2 B b (kb * 2048 + kk.val)

/-- The result array: the full contraction, scaled. -/
def G1 (A B : S8192x8192.Idx → EReal) (v : S8192x1.Idx → EReal) (w : S1x8192.Idx → EReal) : S8192x8192.Idx → EReal :=
  fun j => tiles A B (j 0).val (j 1).val 4 * (natC v (j 0).val * natR w (j 1).val)

/-! ## The index maps, decided over the grid -/

theorem idx_facts1 : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = t.val / 32 ∧ win1_2.index t (1 : Fin 2) = 0
    ∧ win1_3.index t (0 : Fin 2) = 0 ∧ win1_3.index t (1 : Fin 2) = t.val / 4 % 8
    ∧ win1_4.index t (0 : Fin 2) = t.val / 32 ∧ win1_4.index t (1 : Fin 2) = t.val / 4 % 8 :=
  (by decide +kernel : ∀ t : Fin grid1.N, _)

/-! ## The blocks, read at an index -/

/-- The four input blocks at a point, at their literal shapes. -/
def tA (c : Dev nD) (t : Fin cfg1.N) : Vec Ideal S1024x2048 .bf16 := iblk1 V c 0 t
def tB (c : Dev nD) (t : Fin cfg1.N) : Vec Ideal S1024x2048 .bf16 := iblk1 V c 1 t
def tV (c : Dev nD) (t : Fin cfg1.N) : Vec Ideal S1024x1 .f32 := iblk1 V c 2 t
def tW (c : Dev nD) (t : Fin cfg1.N) : Vec Ideal S1x1024 .f32 := iblk1 V c 3 t

theorem blkA (c : Dev nD) (t : Fin cfg1.N) (r : Fin 1024) (k : Fin 2048) :
    tA V c t (ix2 r k) = nat2 (V c main_v12) (t.val / 32 * 1024 + r.val) (t.val % 4 * 2048 + k.val) := by
  have hN : t.val < 256 := lt_of_lt_of_eq t.isLt (show cfg1.N = 256 from N_1)
  obtain ⟨e0, e1, -⟩ := idx_facts1 t
  unfold nat2; rw [dif_pos ⟨by omega, by omega⟩]
  unfold tA iblk1; rw [View.read_apply]
  show V c main_v12 _ = V c main_v12 _
  refine congrArg (V c main_v12) (funext fun a => Fin.ext ?_)
  match a with
  | ⟨0, _⟩ => show win1_0.index t (0 : Fin 2) * 1024 + 1 * r.val = t.val / 32 * 1024 + r.val; rw [e0]; omega
  | ⟨1, _⟩ => show win1_0.index t (1 : Fin 2) * 2048 + 1 * k.val = t.val % 4 * 2048 + k.val; rw [e1]; omega

theorem blkB (c : Dev nD) (t : Fin cfg1.N) (s : Fin 1024) (k : Fin 2048) :
    tB V c t (ix2 s k) = nat2 (V c main_v15) (t.val / 4 % 8 * 1024 + s.val) (t.val % 4 * 2048 + k.val) := by
  have hN : t.val < 256 := lt_of_lt_of_eq t.isLt (show cfg1.N = 256 from N_1)
  obtain ⟨-, -, e0, e1, -⟩ := idx_facts1 t
  unfold nat2; rw [dif_pos ⟨by omega, by omega⟩]
  unfold tB iblk1; rw [View.read_apply]
  show V c main_v15 _ = V c main_v15 _
  refine congrArg (V c main_v15) (funext fun a => Fin.ext ?_)
  match a with
  | ⟨0, _⟩ => show win1_1.index t (0 : Fin 2) * 1024 + 1 * s.val = t.val / 4 % 8 * 1024 + s.val; rw [e0]; omega
  | ⟨1, _⟩ => show win1_1.index t (1 : Fin 2) * 2048 + 1 * k.val = t.val % 4 * 2048 + k.val; rw [e1]; omega

theorem blkV (c : Dev nD) (t : Fin cfg1.N) (r : Fin 1024) :
    tV V c t (ix2 r (0 : Fin 1)) = natC (V c main_v5) (t.val / 32 * 1024 + r.val) := by
  have hN : t.val < 256 := lt_of_lt_of_eq t.isLt (show cfg1.N = 256 from N_1)
  obtain ⟨-, -, -, -, e0, e1, -⟩ := idx_facts1 t
  unfold natC; rw [dif_pos (by omega)]
  unfold tV iblk1; rw [View.read_apply]
  show V c main_v5 _ = V c main_v5 _
  refine congrArg (V c main_v5) (funext fun a => Fin.ext ?_)
  match a with
  | ⟨0, _⟩ => show win1_2.index t (0 : Fin 2) * 1024 + 1 * r.val = t.val / 32 * 1024 + r.val; rw [e0]; omega
  | ⟨1, _⟩ => show win1_2.index t (1 : Fin 2) * 1 + 1 * 0 = 0; rw [e1]

theorem blkW (c : Dev nD) (t : Fin cfg1.N) (s : Fin 1024) :
    tW V c t (ix2 (0 : Fin 1) s) = natR (V c main_v11) (t.val / 4 % 8 * 1024 + s.val) := by
  have hN : t.val < 256 := lt_of_lt_of_eq t.isLt (show cfg1.N = 256 from N_1)
  obtain ⟨-, -, -, -, -, -, e0, e1, -⟩ := idx_facts1 t
  unfold natR; rw [dif_pos (by omega)]
  unfold tW iblk1; rw [View.read_apply]
  show V c main_v11 _ = V c main_v11 _
  refine congrArg (V c main_v11) (funext fun a => Fin.ext ?_)
  match a with
  | ⟨0, _⟩ => show win1_3.index t (0 : Fin 2) * 1 + 1 * 0 = 0; rw [e0]
  | ⟨1, _⟩ => show win1_3.index t (1 : Fin 2) * 1024 + 1 * s.val = t.val / 4 % 8 * 1024 + s.val; rw [e1]; omega

/-- One point's partial product is the next K-tile's summand. -/
theorem step_eq (c : Dev nD) (t : Fin cfg1.N) (r s : Fin 1024) :
    ∑ k : Fin 2048, tA V c t (ix2 r k) * tB V c t (ix2 s k)
      = ∑ kk : Fin 2048, nat2 (V c main_v12) (t.val / 32 * 1024 + r.val) (t.val % 4 * 2048 + kk.val) * nat2 (V c main_v15) (t.val / 4 % 8 * 1024 + s.val) (t.val % 4 * 2048 + kk.val) :=
  Finset.sum_congr rfl fun k _ => by rw [blkA, blkB]

/-! ## The accumulator, by induction on the point -/

theorem acc_eq (c : Dev nD) : ∀ (n : ℕ) (hn : n < cfg1.N) (r s : Fin 1024),
    (outsAt1 V c n hn).2 (ix2 r s) = tiles (V c main_v12) (V c main_v15) (n / 32 * 1024 + r.val) (n / 4 % 8 * 1024 + s.val) (n % 4 + 1)
  | 0, hn, r, s => by
    rw [outsAt1_A V c ⟨0, hn⟩ rfl (by dsimp only; omega), sout_A]
    show k1_pay2 (tA V c ⟨0, hn⟩) (tB V c ⟨0, hn⟩) (k1_pay1 (F := Ideal)) (ix2 r s) = _
    rw [tpay2_apply, tpay1_apply, zero_add, step_eq]
    unfold tiles
    rw [Finset.sum_range_one]
    rfl
  | n + 1, hn, r, s => by
    have hN : n + 1 < 256 := lt_of_lt_of_eq hn (show cfg1.N = 256 from N_1)
    by_cases h0 : (n + 1) % 4 = 0
    · have h1 : ¬(⟨n + 1, hn⟩ : Fin cfg1.N).val % 4 = 3 := by dsimp only; omega
      rw [outsAt1_A V c ⟨n + 1, hn⟩ h0 h1, sout_A]
      show k1_pay2 (tA V c ⟨n + 1, hn⟩) (tB V c ⟨n + 1, hn⟩) (k1_pay1 (F := Ideal)) (ix2 r s) = _
      rw [tpay2_apply, tpay1_apply, zero_add, step_eq]
      unfold tiles
      rw [show (n + 1) % 4 + 1 = 1 from by omega, Finset.sum_range_one]
      show _ = ∑ kk : Fin 2048, nat2 (V c main_v12) ((n + 1) / 32 * 1024 + r.val) (0 * 2048 + kk.val) * nat2 (V c main_v15) ((n + 1) / 4 % 8 * 1024 + s.val) (0 * 2048 + kk.val)
      rw [show ((⟨n + 1, hn⟩ : Fin cfg1.N).val) % 4 = 0 from h0]
    · have ih := acc_eq c n (Nat.lt_of_succ_lt hn) r s
      have e1 : n / 32 = (n + 1) / 32 := by omega
      have e2 : n / 4 % 8 = (n + 1) / 4 % 8 := by omega
      have e3 : (n + 1) % 4 = n % 4 + 1 := by omega
      have hstep : (outsAt1 V c (n + 1) hn).2 (ix2 r s) = (outsAt1 V c n (Nat.lt_of_succ_lt hn)).2 (ix2 r s)
          + ∑ k : Fin 2048, tA V c ⟨n + 1, hn⟩ (ix2 r k) * tB V c ⟨n + 1, hn⟩ (ix2 s k) := by
        by_cases h1 : (n + 1) % 4 = 3
        · rw [outsAt1_C V c ⟨n + 1, hn⟩ h0 h1, sout_C]
          exact tpay2_apply (tA V c ⟨n + 1, hn⟩) (tB V c ⟨n + 1, hn⟩) _ r s
        · rw [outsAt1_B V c ⟨n + 1, hn⟩ h0 h1, sout_B]
          exact tpay2_apply (tA V c ⟨n + 1, hn⟩) (tB V c ⟨n + 1, hn⟩) _ r s
      rw [hstep, ih, step_eq]
      unfold tiles
      show _ + ∑ kk : Fin 2048, nat2 (V c main_v12) ((n + 1) / 32 * 1024 + r.val) ((n + 1) % 4 * 2048 + kk.val) * nat2 (V c main_v15) ((n + 1) / 4 % 8 * 1024 + s.val) ((n + 1) % 4 * 2048 + kk.val) = _
      rw [e3, e1, e2, Finset.sum_range_succ _ (n % 4 + 1)]

/-! ## What a write-back writes, and the cover -/

theorem mem_blk4 (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v16).slice (win1_4.rect t)).set ↔ _
  rw [View.set_slice_whole, Rect.mem_set_unit]
  exact Iff.rfl

theorem flushed4_eq (c : Dev nD) (t : Fin cfg1.N) (hf : (cfg1.win 4).flush t = true) :
    (dat1 V c).flushed 4 t = ((cfg1.win 4).blk t).view.read (Elt Ideal) (G1 (V c main_v12) (V c main_v15) (V c main_v5) (V c main_v11)) := by
  have hN : t.val < 256 := lt_of_lt_of_eq t.isLt (show cfg1.N = 256 from N_1)
  have h3 : t.val % 4 = 3 := (flush1_4 t).mp hf
  have h0 : ¬t.val % 4 = 0 := by omega
  obtain ⟨-, -, -, -, -, -, -, -, e0, e1⟩ := idx_facts1 t
  show (cfg1.win 4).cut (grid1.coords t) ((dat1 V c).after 4 t) = _
  rw [after1_4, outsAt1_C V c t h0 h3]
  dsimp only
  rw [out_C, ← sout_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h3) (iblk1 V c 0 t) (iblk1 V c 1 t) (iblk1 V c 2 t) (iblk1 V c 3 t) (outsAt1 V c (t.val - 1) (Nat.lt_of_le_of_lt (Nat.sub_le _ _) t.isLt)).2]
  have hacc : sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h3) (iblk1 V c 0 t) (iblk1 V c 1 t) (iblk1 V c 2 t) (iblk1 V c 3 t) (outsAt1 V c (t.val - 1) (Nat.lt_of_le_of_lt (Nat.sub_le _ _) t.isLt)).2 = (outsAt1 V c t.val t.isLt).2 := by
    rw [outsAt1_C V c t h0 h3]
  rw [hacc]
  funext j
  obtain ⟨r, s, rfl⟩ : ∃ (r : Fin 1024) (s : Fin 1024), j = ix2 r s := ⟨j 0, j 1, eq_ix2 j⟩
  show k1_pay3 (tV V c t) (tW V c t) (outsAt1 V c t.val t.isLt).2 (ix2 r s)
    = G1 (V c main_v12) (V c main_v15) (V c main_v5) (V c main_v11) (((cfg1.win 4).blk t).view.emb (ix2 r s))
  rw [tpay3_apply, acc_eq, blkV, blkW]
  unfold G1
  have q0 : ((((cfg1.win 4).blk t).view.emb (ix2 r s)) 0).val = t.val / 32 * 1024 + r.val := by
    show win1_4.index t (0 : Fin 2) * 1024 + 1 * r.val = _; rw [e0]; omega
  have q1 : ((((cfg1.win 4).blk t).view.emb (ix2 r s)) 1).val = t.val / 4 % 8 * 1024 + s.val := by
    show win1_4.index t (1 : Fin 2) * 1024 + 1 * s.val = _; rw [e1]; omega
  dsimp only
  rw [q0, q1, h3]

theorem cover4 (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 256 := N_1
  let t : Fin cfg1.N := ⟨(i 0).val / 1024 * 32 + (i 1).val / 1024 * 4 + 3, by rw [hN]; omega⟩
  have ht : t.val = (i 0).val / 1024 * 32 + (i 1).val / 1024 * 4 + 3 := rfl
  obtain ⟨-, -, -, -, -, -, -, -, e0, e1⟩ := idx_facts1 t
  refine ⟨t, (flush1_4 t).mpr (by omega), ?_⟩
  rw [mem_blk4]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 1024 ≤ (i 1).val ∧ (i 1).val < win1_4.index t (1 : Fin 2) * 1024 + 1024; rw [e1]; omega

/-- The result array after the tiled product. -/
theorem final4 (c : Dev nD) : (dat1 V c).arrAt 4 cfg1.N = G1 (V c main_v12) (V c main_v15) (V c main_v5) (V c main_v11) :=
  (dat1 V c).arrAt_eq_of_cover 4 _ (flushed4_eq V c) cover4

/-- Entry (p, q) of it: the full contraction over k, scaled by v(p) · w(q). -/
theorem G1_apply (A B : S8192x8192.Idx → EReal) (v : S8192x1.Idx → EReal) (w : S1x8192.Idx → EReal) (p q : Fin 8192) :
    G1 A B v w (ix2 p q) = (∑ k : Fin 8192, A (ix2 p k) * B (ix2 q k)) * (v (ix2 p (0 : Fin 1)) * w (ix2 (0 : Fin 1) q)) := by
  unfold G1 tiles natC natR
  dsimp only
  rw [dif_pos p.isLt, dif_pos q.isLt, sum_tiles (fun k => A (ix2 p k) * B (ix2 q k)), ← Fin.sum_univ_eq_sum_range (fun kb => ∑ kk : Fin 2048, nat2 A p.val (kb * 2048 + kk.val) * nat2 B q.val (kb * 2048 + kk.val)) 4]
  refine congrArg (· * _) (Finset.sum_congr rfl fun kb _ => Finset.sum_congr rfl fun kk _ => ?_)
  have hk : kb.val * 2048 + kk.val < 8192 := by have := kb.isLt; have := kk.isLt; omega
  unfold nat2
  rw [dif_pos ⟨p.isLt, hk⟩, dif_pos ⟨q.isLt, hk⟩]

end Cert.KernelIdeal.Hand

end
-- ==== Proof.R0Value.lean ====
/-
  Region 0's values at the ideal instance: after the sixteen row blocks the first output array holds every row's sum
  and the second every column's sum of the input array as the region finds it. Each found piece is read as its
  payload; the row-sum buffer holds the block's row sums after every point; the column-sum buffer holds, after point
  n, the sum over the first 512·(n+1) rows (by induction on the point); the write-backs then tile the two arrays.
-/
import proofs.«170422_j16011638079612_2_alg».proof.Proof.R0Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## The found pieces are the payloads -/

section Pieces
variable {F : FTy → Type} [FloatOps F]

theorem hz : (![0, 0] : Fin 2 → Nat) = fun _ => 0 := funext fun a => by fin_cases a <;> rfl

/-- At the first point the row-sum buffer is left at the block's row sums. -/
theorem out_A_1 (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (hc : cond0_0 i) (x : Vec F S512x8192 .f32) :
    out0_A_1 c i a1 h1 a2 h2 a3 h3 hc x = k0_pay2 x := by
  unfold out0_A_1
  rw [View.read_writes_eq_canon _ _ _ (cover0_A_1 c i a1 h1 a2 h2 a3 h3 hc x)]
  unfold kernelRun0_A
  dsimp only
  rw [View.canon_unit_zero (S := S512x1) hz]
  simp only [View.readAt_eq_ld, h1.read_unread, View.ld_unit_zero (S := S512x8192) hz]

/-- At a later point likewise. -/
theorem out_B_1 (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (hc : ¬cond0_0 i) (x : Vec F S512x8192 .f32) (xo : Vec F S1x8192 .f32) :
    out0_B_1 c i a1 h1 a2 h2 a3 h3 hc x xo = k0_pay2 x := by
  unfold out0_B_1
  rw [View.read_writes_eq_canon _ _ _ (cover0_B_1 c i a1 h1 a2 h2 a3 h3 hc x xo)]
  unfold kernelRun0_B
  dsimp only
  rw [View.canon_unit_zero (S := S512x1) hz]
  simp only [View.readAt_eq_ld, h1.read_unread, View.ld_unit_zero (S := S512x8192) hz]

/-- At the first point the column-sum buffer is zeroed, read back, and left at zero plus the block's column sums. -/
theorem out_A_2 (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (hc : cond0_0 i) (x : Vec F S512x8192 .f32) :
    out0_A_2 c i a1 h1 a2 h2 a3 h3 hc x = k0_pay3 x k0_pay1 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x8192) hz, View.readCov_unit_zero (S := S1x8192) _ hz]
  simp only [View.readAt_eq_ld, h1.read_unread, View.ld_unit_zero (S := S512x8192) hz]

/-- At a later point the column-sum buffer, holding `xo`, is left at `xo` plus the block's column sums. -/
theorem out_B_2 (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (hc : ¬cond0_0 i) (x : Vec F S512x8192 .f32) (xo : Vec F S1x8192 .f32) :
    out0_B_2 c i a1 h1 a2 h2 a3 h3 hc x xo = k0_pay3 x xo := by
  unfold out0_B_2
  rw [View.read_writes_eq_canon _ _ _ (cover0_B_2 c i a1 h1 a2 h2 a3 h3 hc x xo)]
  unfold kernelRun0_B
  dsimp only
  rw [View.canon_unit_zero (S := S1x8192) hz]
  simp only [View.readAt_eq_ld, h1.read_unread, h3.read_unread, View.ld_unit_zero (S := S512x8192) hz, View.ld_unit_zero (S := S1x8192) hz]

variable (V : (c : Dev nD) → (b : Ref sig .tc) → Buf (Elt F) ((c : Thread nD τ).loc b))

/-- After every point the row-sum buffer holds the row sums of that point's block. -/
theorem outs1_eq (c : Dev nD) : ∀ (n : ℕ) (h : n < cfg0.N), (outsAt0 V c n h).1 = k0_pay2 (iblk0 V c 0 ⟨n, h⟩)
  | 0, h => by
    rw [outsAt0_A V c ⟨0, h⟩ rfl]
    dsimp only
    exact out_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (iblk0 V c 0 ⟨0, h⟩)
  | n + 1, h => by
    have hN : cfg0.N = 16 := N_0
    have hB : ¬(⟨n + 1, h⟩ : Fin cfg0.N).val % 16 = 0 := by dsimp only; omega
    rw [outsAt0_B V c ⟨n + 1, h⟩ hB]
    dsimp only
    exact out_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (iblk0 V c 0 ⟨n + 1, h⟩) _

/-- The column-sum buffer after the first point, -/
theorem outs2_zero (c : Dev nD) (h : 0 < cfg0.N) : (outsAt0 V c 0 h).2 = k0_pay3 (iblk0 V c 0 ⟨0, h⟩) k0_pay1 := by
  rw [outsAt0_A V c ⟨0, h⟩ rfl]
  dsimp only
  exact out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) ((hcond0_0 ⟨0, h⟩).mpr rfl) (iblk0 V c 0 ⟨0, h⟩)

/-- and after each later one: what the point before left, plus the block's column sums. -/
theorem outs2_succ (c : Dev nD) (n : ℕ) (h : n + 1 < cfg0.N) :
    (outsAt0 V c (n + 1) h).2 = k0_pay3 (iblk0 V c 0 ⟨n + 1, h⟩) (outsAt0 V c n (Nat.lt_of_succ_lt h)).2 := by
  have hN : cfg0.N = 16 := N_0
  have hB : ¬(⟨n + 1, h⟩ : Fin cfg0.N).val % 16 = 0 := by dsimp only; omega
  rw [outsAt0_B V c ⟨n + 1, h⟩ hB]
  dsimp only
  exact out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hB ((hcond0_0 ⟨n + 1, h⟩).mp hh)) (iblk0 V c 0 ⟨n + 1, h⟩) _

/-- The windows' block indices over the grid: the input and the row-sum output move down one block per point, the
    column-sum output stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Element (r, k) of the input's block at point `t` is element (512·t + r, k) of the input array. -/
theorem iblk0_apply (c : Dev nD) (t : Fin cfg0.N) (r : Fin 512) (k : Fin 8192) (h : 512 * t.val + r.val < 8192) :
    (iblk0 V c 0 t : Vec F S512x8192 .f32) (ix2 r k) = V c main_arg0 (ix2 (⟨512 * t.val + r.val, h⟩ : Fin 8192) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 512 + 1 * r.val = 512 * t.val + r.val; rw [e0]; omega
  | ⟨1, _⟩ => show win0_0.index t (1 : Fin 2) * 8192 + 1 * k.val = k.val; rw [e1]; omega

end Pieces

/-! ## The payloads at an index, over the extended reals -/

section AtIdeal

/-- The reset's payload is zero everywhere. -/
theorem pay1_apply (k : Fin 8192) : (k0_pay1 (F := Ideal)) (ix2 (0 : Fin 1) k) = 0 := by
  unfold k0_pay1
  show Ideal.ofBits .f32 0x00000000#32 = 0
  exact Ideal.ofBits_zero_f32

/-- The row-sum payload at row `r`: the sum of the block's row. -/
theorem pay2_apply (x : Vec Ideal S512x8192 .f32) (r : Fin 512) :
    k0_pay2 x (ix2 r (0 : Fin 1)) = ∑ k : Fin 8192, x (ix2 r k) := by
  unfold k0_pay2
  refine (shapeCast_apply _ _ (ix2 r (0 : Fin 1)) (ix1 r) ?_).trans ?_
  · rw [Shape.rowMajor_val_one, Shape.rowMajor_val_two]
    show r.val = r.val * 1 + 0
    omega
  refine (Ideal.multiReduction_add_single x _ _ _ _ (ix1 r)).trans ?_
  exact Finset.sum_congr rfl fun k _ => congrArg x (funext fun a => match a with | ⟨0, _⟩ => rfl | ⟨1, _⟩ => rfl)

/-- The column-sum payload at column `k`: what the buffer held there plus the sum of the block's column. -/
theorem pay3_apply (x : Vec Ideal S512x8192 .f32) (acc : Vec Ideal S1x8192 .f32) (k : Fin 8192) :
    k0_pay3 x acc (ix2 (0 : Fin 1) k) = acc (ix2 (0 : Fin 1) k) + ∑ r : Fin 512, x (ix2 r k) := by
  unfold k0_pay3
  refine (addf_apply _ _ (ix2 (0 : Fin 1) k)).trans ?_
  refine congrArg₂ (fun a b : EReal => a + b) ?_ ?_
  · exact congrFun (shapeCast_self acc _) _
  refine (shapeCast_apply _ _ (ix2 (0 : Fin 1) k) (ix1 k) ?_).trans ?_
  · rw [Shape.rowMajor_val_one, Shape.rowMajor_val_two]
    show k.val = 0 * 8192 + k.val
    omega
  refine (Ideal.multiReduction_add_single x _ _ _ _ (ix1 k)).trans ?_
  exact Finset.sum_congr rfl fun r _ => congrArg x (funext fun a => match a with | ⟨0, _⟩ => rfl | ⟨1, _⟩ => rfl)

end AtIdeal

/-! ## The two outputs, point by point -/

section Values
variable (V : (c : Dev nD) → (b : Ref sig .tc) → Buf (Elt Ideal) ((c : Thread nD τ).loc b))

/-- Column `k` of the input array read at a row number (zero past the array). -/
def colAt (c : Dev nD) (k : Fin 8192) (p : ℕ) : EReal :=
  if h : p < 8192 then V c main_arg0 (ix2 (⟨p, h⟩ : Fin 8192) k) else 0

/-- Row `q`'s sum, the row given by its number (zero past the array). -/
def rowTot (c : Dev nD) (q : ℕ) : EReal :=
  if h : q < 8192 then ∑ k : Fin 8192, V c main_arg0 (ix2 (⟨q, h⟩ : Fin 8192) k) else 0

/-- Column `q`'s sum, the column given by its number (zero past the array). -/
def colTot (c : Dev nD) (q : ℕ) : EReal :=
  if h : q < 8192 then ∑ p : Fin 8192, V c main_arg0 (ix2 p (⟨q, h⟩ : Fin 8192)) else 0

/-- The column sum of the block at point `t` is the sum of the input's column over rows 512·t … 512·t + 511. -/
theorem blk_colsum (c : Dev nD) (t : Fin cfg0.N) (k : Fin 8192) :
    (∑ r : Fin 512, iblk0 V c 0 t (ix2 r k) : EReal) = ∑ r ∈ Finset.range 512, colAt V c k (512 * t.val + r) := by
  have hN : t.val < 16 := lt_of_lt_of_eq t.isLt (show cfg0.N = 16 from N_0)
  rw [← Fin.sum_univ_eq_sum_range (fun r => colAt V c k (512 * t.val + r)) 512]
  refine Finset.sum_congr rfl fun r _ => ?_
  have hr : 512 * t.val + r.val < 8192 := by have := r.isLt; omega
  refine (iblk0_apply V c t r k hr).trans ?_
  unfold colAt
  rw [dif_pos hr]

/-- THE RUNNING COLUMN SUMS: after point `n` the column-sum buffer holds, at column `k`, the sum of the input's column
    over its first 512·(n+1) rows. -/
theorem outs2_eq (c : Dev nD) (k : Fin 8192) : ∀ (n : ℕ) (h : n < cfg0.N),
    (outsAt0 V c n h).2 (ix2 (0 : Fin 1) k) = ∑ p ∈ Finset.range (512 * (n + 1)), colAt V c k p
  | 0, h => by
    rw [outs2_zero V c h]
    refine (pay3_apply (iblk0 V c 0 ⟨0, h⟩) (k0_pay1 (F := Ideal)) k).trans ?_
    refine (congrArg₂ (fun a b : EReal => a + b) (pay1_apply k) (blk_colsum V c ⟨0, h⟩ k)).trans ?_
    refine (zero_add _).trans ?_
    refine Finset.sum_congr rfl fun r _ => ?_
    show colAt V c k (512 * 0 + r) = _
    rw [Nat.mul_zero, Nat.zero_add]
  | n + 1, h => by
    rw [outs2_succ V c n h]
    refine (pay3_apply (iblk0 V c 0 ⟨n + 1, h⟩) (outsAt0 V c n (Nat.lt_of_succ_lt h)).2 k).trans ?_
    refine (congrArg₂ (fun a b : EReal => a + b) (outs2_eq c k n (Nat.lt_of_succ_lt h)) (blk_colsum V c ⟨n + 1, h⟩ k)).trans ?_
    show (∑ p ∈ Finset.range (512 * (n + 1)), colAt V c k p) + (∑ r ∈ Finset.range 512, colAt V c k (512 * (n + 1) + r)) = _
    rw [show 512 * (n + 1 + 1) = 512 * (n + 1) + 512 from by omega, Finset.sum_range_add]

/-! ## From the blocks to the arrays -/

/-- What the first output array ends holding: each row's sum. -/
def rowsG (c : Dev nD) : Buf (Elt Ideal) ((c : Thread nD τ).loc main_v0_0) := fun i => rowTot V c (i 0).val

/-- What the second output array ends holding: each column's sum. -/
def colsG (c : Dev nD) : Buf (Elt Ideal) ((c : Thread nD τ).loc main_v0_1) := fun i => colTot V c (i 1).val

/-- Every point writes back its block of the row sums. -/
theorem flushed1_eq (c : Dev nD) (t : Fin cfg0.N) (hf : (cfg0.win 1).flush t = true) :
    (dat0 V c).flushed 1 t = ((cfg0.win 1).blk t).view.read (Elt Ideal) (rowsG V c) := by
  have hN : t.val < 16 := lt_of_lt_of_eq t.isLt (show cfg0.N = 16 from N_0)
  obtain ⟨-, -, e0, e1, -⟩ := idx_facts t
  show (cfg0.win 1).cut (grid0.coords t) ((dat0 V c).after 1 t) = _
  rw [after0_1, outs1_eq V c t.val t.isLt]
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  show k0_pay2 (iblk0 V c 0 t) (ix2 r (0 : Fin 1)) = rowTot V c ((((cfg0.win 1).blk t).view.emb (ix2 r (0 : Fin 1))) 0).val
  refine (pay2_apply (iblk0 V c 0 t) r).trans ?_
  have hr : 512 * t.val + r.val < 8192 := by have := r.isLt; omega
  have e : ((((cfg0.win 1).blk t).view.emb (ix2 r (0 : Fin 1))) 0).val = 512 * t.val + r.val := by
    show win0_1.index t (0 : Fin 2) * 512 + 1 * r.val = _
    rw [e0]; omega
  rw [e]
  unfold rowTot
  rw [dif_pos hr]
  exact Finset.sum_congr rfl fun k _ => iblk0_apply V c t r k hr

/-- An index of the first output array is in point `t`'s block iff each coordinate is in the block's range. -/
theorem mem_blk1 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- Row `p` is written back by the point of its row block. -/
theorem cover1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have ht : (i 0).val / 512 < cfg0.N := by rw [show cfg0.N = 16 from N_0]; omega
  obtain ⟨-, -, e0, e1, -⟩ := idx_facts ⟨(i 0).val / 512, ht⟩
  refine ⟨⟨(i 0).val / 512, ht⟩, flush0_1 _, ?_⟩
  rw [mem_blk1]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    rw [e0]; dsimp only; omega
  | ⟨1, _⟩ =>
    show win0_1.index ⟨(i 0).val / 512, ht⟩ (1 : Fin 2) * 1 ≤ (i 1).val ∧ (i 1).val < win0_1.index ⟨(i 0).val / 512, ht⟩ (1 : Fin 2) * 1 + 1
    rw [e1]; omega

/-- The last point writes back the whole of the column sums. -/
theorem flushed2_eq (c : Dev nD) (t : Fin cfg0.N) (hf : (cfg0.win 2).flush t = true) :
    (dat0 V c).flushed 2 t = ((cfg0.win 2).blk t).view.read (Elt Ideal) (colsG V c) := by
  have hN : cfg0.N = 16 := N_0
  have h15 : t.val = 15 := by have := (flush0_2 t).mp hf; have := t.isLt; omega
  obtain ⟨-, -, -, -, e0, e1⟩ := idx_facts t
  show (cfg0.win 2).cut (grid0.coords t) ((dat0 V c).after 2 t) = _
  rw [after0_2]
  refine funext fun (y : S1x8192.Idx) => ?_
  obtain ⟨z, k, rfl⟩ : ∃ (z : Fin 1) (k : Fin 8192), y = ix2 z k := ⟨y 0, y 1, eq_ix2 y⟩
  obtain rfl : z = 0 := Subsingleton.elim _ _
  show (outsAt0 V c t.val t.isLt).2 (ix2 (0 : Fin 1) k) = colTot V c ((((cfg0.win 2).blk t).view.emb (ix2 (0 : Fin 1) k)) 1).val
  have e : ((((cfg0.win 2).blk t).view.emb (ix2 (0 : Fin 1) k)) 1).val = k.val := by
    show win0_2.index t (1 : Fin 2) * 8192 + 1 * k.val = _
    rw [e1]; omega
  rw [e, outs2_eq V c k t.val t.isLt, h15]
  unfold colTot
  rw [dif_pos k.isLt, ← Fin.sum_univ_eq_sum_range (fun p => colAt V c k p) 8192]
  refine Finset.sum_congr rfl fun p _ => ?_
  unfold colAt
  rw [dif_pos p.isLt]

/-- An index of the second output array is in point `t`'s block iff each coordinate is in the block's range. -/
theorem mem_blk2 (t : Fin cfg0.N) (i : S1x8192.Idx) :
    i ∈ ((cfg0.win 2).blk t).view.set ↔ ∀ a : Fin 2, win0_2.index t a * S1x8192.size a ≤ (i a).val ∧ (i a).val < win0_2.index t a * S1x8192.size a + S1x8192.size a := by
  show i ∈ ((View.whole main_v0_1).slice (win0_2.rect t)).set ↔ _
  rw [View.set_slice_whole, Rect.mem_set_unit]
  exact Iff.rfl

/-- Every column is written back by the last point. -/
theorem cover2 (i : S1x8192.Idx) : ∃ t : Fin cfg0.N, (cfg0.win 2).flush t = true ∧ i ∈ ((cfg0.win 2).blk t).view.set := by
  have hi0 : (i 0).val < 1 := (i 0).isLt
  have hi1 : (i 1).val < 8192 := (i 1).isLt
  obtain ⟨-, -, -, -, e0, e1⟩ := idx_facts t0_15
  refine ⟨t0_15, (flush0_2 t0_15).mpr rfl, ?_⟩
  rw [mem_blk2]
  intro a
  match a with
  | ⟨0, _⟩ =>
    show win0_2.index t0_15 (0 : Fin 2) * 1 ≤ (i 0).val ∧ (i 0).val < win0_2.index t0_15 (0 : Fin 2) * 1 + 1
    rw [e0]; omega
  | ⟨1, _⟩ =>
    show win0_2.index t0_15 (1 : Fin 2) * 8192 ≤ (i 1).val ∧ (i 1).val < win0_2.index t0_15 (1 : Fin 2) * 8192 + 8192
    rw [e1]; omega

/-- THE ROW SUMS: after the region the first output array holds, at row `p`, the sum of the input array's row `p`. -/
theorem rowsum0 (c : Dev nD) (p : Fin 8192) :
    (dat0 V c).arrAt 1 cfg0.N (ix2 p (0 : Fin 1)) = (∑ k : Fin 8192, V c main_arg0 (ix2 p k) : EReal) := by
  refine (congrFun ((dat0 V c).arrAt_eq_of_cover 1 (rowsG V c) (flushed1_eq V c) (fun i => cover1 i)) (ix2 p (0 : Fin 1))).trans ?_
  show rowTot V c p.val = _
  unfold rowTot
  rw [dif_pos p.isLt]

/-- THE COLUMN SUMS: after the region the second output array holds, at column `k`, the sum of the input array's
    column `k`. -/
theorem colsum0 (c : Dev nD) (k : Fin 8192) :
    (dat0 V c).arrAt 2 cfg0.N (ix2 (0 : Fin 1) k) = (∑ p : Fin 8192, V c main_arg0 (ix2 p k) : EReal) := by
  refine (congrFun ((dat0 V c).arrAt_eq_of_cover 2 (colsG V c) (flushed2_eq V c) (fun i => cover2 i)) (ix2 (0 : Fin 1) k)).trans ?_
  show colTot V c k.val = _
  unfold colTot
  rw [dif_pos k.isLt]

end Values

end Cert.KernelIdeal.Hand

end
-- ==== Proof.Spec.lean ====
/-
  The mathematics both programs compute, stated once, over the extended reals.

  H is an 8192 × 8192 incidence matrix (nodes × hyperedges).  A node's degree is its row sum, a hyperedge's degree
  its column sum.  A node of positive degree d is scaled by d^(-1/2), a hyperedge of positive degree d by 1/d, and a
  node or hyperedge of non-positive degree by 0.  The normalised hypergraph Laplacian's adjacency part is
      G(p, q) = Σ_k (H(p,k) · v(p) · e(k)) · (H(q,k) · v(q)),
  v the node scales and e the hyperedge scales.  `refEntry` is that sum as written; `kerEntry` is the same number
  with the two node scales pulled out of the sum:  (Σ_k H(p,k) · (H(q,k) · e(k))) · (v(p) · v(q)).
-/
import Idealize.ShloMosaic.PureOps.Ideal
import Idealize.ShloMosaic.Lib.ValueIdx

noncomputable section

namespace Cert.Hyper

open Idealize.ShloMosaic Idealize.ShloMosaic.ValueIdx

/-- The shape of H and of the result. -/
abbrev Sq : Shape := ⟨2, ![8192, 8192]⟩

/-- The binary32 word of 1.0, read as an extended real. -/
def oneW : EReal := Ideal.ofBits .f32 0x3F800000#32
/-- The binary32 word of -0.5, read as an extended real. -/
def mhalfW : EReal := Ideal.ofBits .f32 0xBF000000#32

/-- A node's scale from its degree: d^(-1/2) where d > 0, else 0. -/
def nodeScale (d : EReal) : EReal := Scalar.select (Ideal.cmp .ogt d 0) (Ideal.pow d mhalfW) 0
/-- A hyperedge's scale from its degree: 1/d where d > 0, else 0. -/
def edgeScale (d : EReal) : EReal := Scalar.select (Ideal.cmp .ogt d 0) (Ideal.div oneW d) 0

/-- The degree of node p: the sum of row p. -/
def rowSum (H : Sq.Idx → EReal) (p : Fin 8192) : EReal := ∑ k : Fin 8192, H (ix2 p k)
/-- The degree of hyperedge k: the sum of column k. -/
def colSum (H : Sq.Idx → EReal) (k : Fin 8192) : EReal := ∑ p : Fin 8192, H (ix2 p k)

/-- Entry (p, q) with every scale inside the sum. -/
def refEntry (H : Sq.Idx → EReal) (p q : Fin 8192) : EReal :=
  ∑ k : Fin 8192, ((H (ix2 p k) * nodeScale (rowSum H p)) * edgeScale (colSum H k)) * (H (ix2 q k) * nodeScale (rowSum H q))

/-- Entry (p, q) with the two node scales outside the sum. -/
def kerEntry (H : Sq.Idx → EReal) (p q : Fin 8192) : EReal :=
  (∑ k : Fin 8192, H (ix2 p k) * (H (ix2 q k) * edgeScale (colSum H k))) * (nodeScale (rowSum H p) * nodeScale (rowSum H q))

/-- The whole result array. -/
def G (H : Sq.Idx → EReal) : Sq.Idx → EReal := fun j => refEntry H (j 0) (j 1)

end Cert.Hyper

end
-- ==== Proof.HostMid.lean ====
/-
  The host's work between the two kernels.  The first kernel leaves the row sums dv (a column, 8192 × 1) and the column
  sums de (a row, 1 × 8192).  The host then forms the node scales v = dv^(-1/2) where dv > 0 and 0 elsewhere (as a
  column, and transposed as a row), the hyperedge scales e = 1/de where de > 0 and 0 elsewhere, and the two operands
  of the second kernel's product: H itself and H with column k scaled by e(k).  Narrowing to a shorter float format is
  the identity over the extended reals.
-/
import proofs.«170422_j16011638079612_2_alg».proof.Proof.Gen.KernelIdeal.Launch
import proofs.«170422_j16011638079612_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-- The buffers' contents after the host operations between the two kernels, in order, from contents W. -/
def midAfter {F : FTy → Type} [FloatOps F] (W : Valuation τ sig (Elt F)) : Valuation τ sig (Elt F) :=
  StableHlo.after hostOps1_4 (StableHlo.after hostOps1_3 (StableHlo.after hostOps1_2
    (StableHlo.after hostOps1_1 (StableHlo.after hostOps1 W))))

/-- Narrowing H to the shorter format leaves it as it is. -/
theorem mid_v12 (W : Valuation τ sig (Elt Ideal)) (p k : Fin 8192) :
    midAfter W (Proc.devRef .tc main_v12) (ix2 p k) = W (Proc.devRef .tc main_arg0) (ix2 p k) := by
  unfold midAfter
  dsimp only [hostOps1, hostOps1_1, hostOps1_2, hostOps1_3, hostOps1_4]
  open StableHlo in after_results
  rfl

/-- The node scales as a column: at row p, the row sum to the power -1/2 where it is above 0, else 0. -/
theorem mid_v5 (W : Valuation τ sig (Elt Ideal)) (p : Fin 8192) :
    midAfter W (Proc.devRef .tc main_v5) (ix2 p (0 : Fin 1))
      = Cert.Hyper.nodeScale (W (Proc.devRef .tc main_v0_0) (ix2 p (0 : Fin 1))) := by
  unfold midAfter
  dsimp only [hostOps1, hostOps1_1, hostOps1_2, hostOps1_3, hostOps1_4]
  open StableHlo in after_results
  show Scalar.select
      (Ideal.cmp .ogt (W (Proc.devRef .tc main_v0_0) (ix2 p (0 : Fin 1))) (Ideal.ofBits .f32 0x00000000#32))
      (Ideal.pow (W (Proc.devRef .tc main_v0_0) (ix2 p (0 : Fin 1))) (Ideal.ofBits .f32 0xBF000000#32))
      (Ideal.ofBits .f32 0x00000000#32) = _
  rw [Ideal.ofBits_zero_f32]
  rfl

/-- The node scales as a row are the column transposed. -/
theorem mid_v11_v5 (W : Valuation τ sig (Elt Ideal)) (q : Fin 8192) :
    midAfter W (Proc.devRef .tc main_v11) (ix2 (0 : Fin 1) q)
      = midAfter W (Proc.devRef .tc main_v5) (ix2 q (0 : Fin 1)) := by
  unfold midAfter
  dsimp only [hostOps1, hostOps1_1, hostOps1_2, hostOps1_3, hostOps1_4]
  open StableHlo in after_results
  exact transpose_ix2_apply _ _ _ _

/-- The node scales as a row: at column q, the scale of node q. -/
theorem mid_v11 (W : Valuation τ sig (Elt Ideal)) (q : Fin 8192) :
    midAfter W (Proc.devRef .tc main_v11) (ix2 (0 : Fin 1) q)
      = Cert.Hyper.nodeScale (W (Proc.devRef .tc main_v0_0) (ix2 q (0 : Fin 1))) := by
  rw [mid_v11_v5, mid_v5]

/-- The hyperedge scales as a row: at column k, 1 over the column sum where it is above 0, else 0. -/
theorem mid_v10 (W : Valuation τ sig (Elt Ideal)) (k : Fin 8192) :
    midAfter W (Proc.devRef .tc main_v10) (ix2 (0 : Fin 1) k)
      = Cert.Hyper.edgeScale (W (Proc.devRef .tc main_v0_1) (ix2 (0 : Fin 1) k)) := by
  unfold midAfter
  dsimp only [hostOps1, hostOps1_1, hostOps1_2, hostOps1_3, hostOps1_4]
  open StableHlo in after_results
  show Scalar.select
      (Ideal.cmp .ogt (W (Proc.devRef .tc main_v0_1) (ix2 (0 : Fin 1) k)) (Ideal.ofBits .f32 0x00000000#32))
      (Ideal.div (Ideal.ofBits .f32 0x3F800000#32) (W (Proc.devRef .tc main_v0_1) (ix2 (0 : Fin 1) k)))
      (Ideal.ofBits .f32 0x00000000#32) = _
  rw [Ideal.ofBits_zero_f32]
  rfl

/-- The second operand at (q, k) is H(q,k) times the row of hyperedge scales at k: the row is broadcast down the
    columns, the product is entry by entry, and the narrowing changes nothing. -/
theorem mid_v15_v10 (W : Valuation τ sig (Elt Ideal)) (q k : Fin 8192) :
    midAfter W (Proc.devRef .tc main_v15) (ix2 q k)
      = HMul.hMul (α := EReal) (β := EReal) (γ := EReal) (W (Proc.devRef .tc main_arg0) (ix2 q k))
          (midAfter W (Proc.devRef .tc main_v10) (ix2 (0 : Fin 1) k)) := by
  unfold midAfter
  dsimp only [hostOps1, hostOps1_1, hostOps1_2, hostOps1_3, hostOps1_4]
  open StableHlo in after_results_simp
  refine congrArg (HMul.hMul (α := EReal) (β := EReal) (γ := EReal) (W (Proc.devRef .tc main_arg0) (ix2 q k)))
    (broadcastInDim_apply ![0, 1] bcast_S1x8192_S8192x8192_0_1 _ (ix2 q k) (ix2 (0 : Fin 1) k) fun a => ?_)
  match a with
  | ⟨0, _⟩ => show (0 : Nat) = if (1 : Nat) = 1 then 0 else q.val; rw [if_pos rfl]
  | ⟨1, _⟩ => show k.val = if (8192 : Nat) = 1 then 0 else k.val; rw [if_neg (by decide)]

/-- The second operand at (q, k): H(q,k) · e(k). -/
theorem mid_v15 (W : Valuation τ sig (Elt Ideal)) (q k : Fin 8192) :
    midAfter W (Proc.devRef .tc main_v15) (ix2 q k)
      = HMul.hMul (α := EReal) (β := EReal) (γ := EReal) (W (Proc.devRef .tc main_arg0) (ix2 q k))
          (Cert.Hyper.edgeScale (W (Proc.devRef .tc main_v0_1) (ix2 (0 : Fin 1) k))) := by
  rw [mid_v15_v10, mid_v10]

end Cert.KernelIdeal.Hand

end
-- ==== Proof.Law.lean ====
/-
  The algebraic law: with every entry of H a real number, the entry computed with the two node scales pulled out of
  the sum equals the entry computed with every scale inside the sum.

  Finiteness is what makes it true.  Every row sum and every column sum of a real matrix is real; a node scale
  d^(-1/2) (or 0) and a hyperedge scale 1/d (or 0) of a real degree d are real; and on real numbers the law is
  commutativity and associativity of the product together with distributivity over a finite sum.
-/
import proofs.«170422_j16011638079612_2_alg».proof.Proof.Spec

noncomputable section

namespace Cert.Hyper

open Idealize.ShloMosaic Idealize.ShloMosaic.ValueIdx

/-- The binary32 word 0x3F800000 denotes the real 1. -/
theorem oneW_eq : oneW = ((1 : ℝ) : EReal) := by
  unfold oneW
  simp [Ideal.ofBits, Ideal.ieee, -EReal.coe_mul]; norm_num

/-- The binary32 word 0xBF000000 denotes the real -1/2. -/
theorem mhalfW_eq : mhalfW = ((-(1 / 2) : ℝ) : EReal) := by
  unfold mhalfW
  simp [Ideal.ofBits, Ideal.ieee, -EReal.coe_mul]; norm_num

/-- A finite sum of reals, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The node scale of a real degree, as a real: d^(-1/2) above zero, else 0. -/
def nodeScaleR (d : ℝ) : ℝ := if 0 < d then Real.rpow d (-(1 / 2)) else 0

/-- The hyperedge scale of a real degree, as a real: 1/d above zero, else 0. -/
def edgeScaleR (d : ℝ) : ℝ := if 0 < d then 1 / d else 0

theorem nodeScale_coe (d : ℝ) : nodeScale (d : EReal) = ((nodeScaleR d : ℝ) : EReal) := by
  unfold nodeScale nodeScaleR Scalar.select Ideal.cmp
  by_cases h : 0 < d
  · have h' : (0 : EReal) < (d : EReal) := by exact_mod_cast h
    rw [if_pos h, mhalfW_eq, Ideal.pow_coe_coe, decide_eq_true h']
    exact if_pos rfl
  · have h' : ¬ (0 : EReal) < (d : EReal) := by exact_mod_cast h
    simp [h, h']

theorem edgeScale_coe (d : ℝ) : edgeScale (d : EReal) = ((edgeScaleR d : ℝ) : EReal) := by
  unfold edgeScale edgeScaleR Scalar.select Ideal.cmp
  by_cases h : 0 < d
  · have h' : (0 : EReal) < (d : EReal) := by exact_mod_cast h
    have hne : d ≠ 0 := ne_of_gt h
    simp [h, h', oneW_eq, Ideal.div_coe hne]
  · have h' : ¬ (0 : EReal) < (d : EReal) := by exact_mod_cast h
    simp [h, h']

/-- With every entry of H real, pulling the two node scales out of the sum over hyperedges changes nothing:
    each term of the sum is a product of five reals, regrouped, and the common factor v(p) · v(q) distributes. -/
theorem ker_eq_ref (H : Sq.Idx → EReal) (hfin : ∀ j, ∃ r : ℝ, H j = (r : EReal)) (p q : Fin 8192) :
    kerEntry H p q = refEntry H p q := by
  choose R hR using hfin
  have hrow : ∀ a : Fin 8192, rowSum H a = ((∑ k : Fin 8192, R (ix2 a k) : ℝ) : EReal) := by
    intro a; unfold rowSum; rw [coe_sum]; exact Finset.sum_congr rfl fun k _ => hR _
  have hcol : ∀ k : Fin 8192, colSum H k = ((∑ a : Fin 8192, R (ix2 a k) : ℝ) : EReal) := by
    intro k; unfold colSum; rw [coe_sum]; exact Finset.sum_congr rfl fun a _ => hR _
  unfold kerEntry refEntry
  simp only [hrow, hcol, nodeScale_coe, edgeScale_coe, hR, ← EReal.coe_mul, ← coe_sum]
  refine congrArg (fun r : ℝ => (r : EReal)) ?_
  rw [Finset.sum_mul]
  refine Finset.sum_congr rfl fun k _ => ?_
  ring

end Cert.Hyper

end
-- ==== Proof.Bridge.lean ====
/-
  The kernel's result is G of its argument.  The degree reduction leaves the row and column sums of H; the host
  lines turn them into the scales v and e and form the operands A = H and B = H · e (column by column); the tiled
  product leaves (Σ_k A(p,k) · B(q,k)) · (v(p) · v(q)).  Put together that is the specification's entry with the two
  node scales outside the sum, which equals the entry with them inside because every entry of H is a real number.
-/
import proofs.«170422_j16011638079612_2_alg».proof.Proof.Run
import proofs.«170422_j16011638079612_2_alg».proof.Proof.R1Value
import proofs.«170422_j16011638079612_2_alg».proof.Proof.R0Value
import proofs.«170422_j16011638079612_2_alg».proof.Proof.HostMid
import proofs.«170422_j16011638079612_2_alg».proof.Proof.Law

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- H, as launched. -/
abbrev Hm (c : Dev nD) : Cert.Hyper.Sq.Idx → EReal := m ((c : Thread nD τ).loc main_arg0)

/-- The degree reduction leaves H in place. -/
theorem W1_arg0 (c : Dev nD) : W1 m c (Proc.devRef .tc main_arg0) = m ((c : Thread nD τ).loc main_arg0) :=
  (W1_arr m c 0).trans (((dat0 (VA m) c).arrAt_in 0 rfl _).trans (A_eq0 (VA m) c 0))

/-- It leaves the row sums in its first result, -/
theorem degRow (c : Dev nD) (p : Fin 8192) :
    W1 m c (Proc.devRef .tc main_v0_0) (ix2 p (0 : Fin 1)) = Cert.Hyper.rowSum (Hm m c) p :=
  (congrFun (W1_arr m c 1) (ix2 p (0 : Fin 1))).trans (rowsum0 (VA m) c p)

/-- and the column sums in its second. -/
theorem degCol (c : Dev nD) (k : Fin 8192) :
    W1 m c (Proc.devRef .tc main_v0_1) (ix2 (0 : Fin 1) k) = Cert.Hyper.colSum (Hm m c) k :=
  (congrFun (W1_arr m c 2) (ix2 (0 : Fin 1) k)).trans (colsum0 (VA m) c k)

/-- The first operand is H. -/
theorem opA (c : Dev nD) (p k : Fin 8192) : VB m c main_v12 (ix2 p k) = Hm m c (ix2 p k) :=
  (mid_v12 (W1 m c) p k).trans (congrFun (W1_arg0 m c) (ix2 p k))

/-- The second operand is H with column k scaled by e(k). -/
theorem opB (c : Dev nD) (q k : Fin 8192) :
    VB m c main_v15 (ix2 q k) = Hm m c (ix2 q k) * Cert.Hyper.edgeScale (Cert.Hyper.colSum (Hm m c) k) := by
  refine (mid_v15 (W1 m c) q k).trans ?_
  rw [degCol, congrFun (W1_arg0 m c) (ix2 q k)]

/-- The column of node scales. -/
theorem scaleCol (c : Dev nD) (p : Fin 8192) :
    VB m c main_v5 (ix2 p (0 : Fin 1)) = Cert.Hyper.nodeScale (Cert.Hyper.rowSum (Hm m c) p) := by
  refine (mid_v5 (W1 m c) p).trans ?_
  rw [degRow]

/-- The row of node scales. -/
theorem scaleRow (c : Dev nD) (q : Fin 8192) :
    VB m c main_v11 (ix2 (0 : Fin 1) q) = Cert.Hyper.nodeScale (Cert.Hyper.rowSum (Hm m c) q) := by
  refine (mid_v11 (W1 m c) q).trans ?_
  rw [degRow]

/-- THE RESULT: where every entry of H is a real number, the result buffer ends holding G of H. -/
theorem result_eq (c : Dev nD) (hfin : ∀ j, ∃ r : ℝ, m ((c : Thread nD τ).loc main_arg0) j = (r : EReal)) :
    W7 m c (Proc.devRef .tc main_v16) = Cert.Hyper.G (m ((c : Thread nD τ).loc main_arg0)) := by
  refine (W7_arr m c 4).trans ((final4 (VB m) c).trans ?_)
  funext j
  obtain ⟨p, q, rfl⟩ : ∃ (p q : Fin 8192), j = ix2 p q := ⟨j 0, j 1, eq_ix2 j⟩
  rw [G1_apply]
  show _ = Cert.Hyper.refEntry (Hm m c) p q
  rw [← Cert.Hyper.ker_eq_ref (Hm m c) hfin p q]
  unfold Cert.Hyper.kerEntry
  rw [scaleCol, scaleRow]
  refine congrArg (· * _) (Finset.sum_congr rfl fun k _ => ?_)
  rw [opA, opB]

end Cert.KernelIdeal.Hand

end
-- ==== Proof.RefIsG.lean ====
/-
  The reference program computes G.  Read one operation at a time, the reference forms the row sums and the column
  sums of H (each as 0 plus a finite sum), compares each with 0, raises a positive row sum to the power -1/2 and divides
  1 by a positive column sum (0 otherwise), scales H(p,k) by the node scale of p and then by the hyperedge scale of k,
  and contracts that over k against the transpose of the node-scaled matrix.  Entry (p, q) of the result is therefore
  the sum over k of (H(p,k) · v(p) · e(k)) · (H(q,k) · v(q)), which is the specification's entry with every scale
  inside the sum.
-/
import proofs.«170422_j16011638079612_2_alg».proof.Proof.Spec
import proofs.«170422_j16011638079612_2_alg».proof.Proof.Gen.ReferenceIdeal.Read

noncomputable section

namespace Cert.Hyper

open Idealize.ShloMosaic Idealize.ShloMosaic.ValueIdx Cert.ReferenceIdeal

/-- The reference's row sums: 0 plus the sum of row p. -/
theorem ref_rowSum (x0 : (⟨S8192x8192, .f32⟩ : BufTy).Contents (Elt Ideal)) (p : Fin 8192) :
    Read.val_main_v0 (F := Ideal) x0 (ix1 p) = rowSum x0 p := by
  rw [Read.val_main_v0_apply, Read.val_main_cst_apply, Ideal.ofBits_def, Ideal.ofBits_zero_f32, zero_add]
  unfold rowSum
  refine Finset.sum_congr rfl fun k _ => congrArg x0 (funext fun a => Fin.ext ?_)
  match a with
  | ⟨0, _⟩ => rfl
  | ⟨1, _⟩ => rfl

/-- The reference's column sums: 0 plus the sum of column k. -/
theorem ref_colSum (x0 : (⟨S8192x8192, .f32⟩ : BufTy).Contents (Elt Ideal)) (k : Fin 8192) :
    Read.val_main_v1 (F := Ideal) x0 (ix1 k) = colSum x0 k := by
  rw [Read.val_main_v1_apply, Read.val_main_cst_0_apply, Ideal.ofBits_def, Ideal.ofBits_zero_f32, zero_add]
  unfold colSum
  refine Finset.sum_congr rfl fun p _ => congrArg x0 (funext fun a => Fin.ext ?_)
  match a with
  | ⟨0, _⟩ => rfl
  | ⟨1, _⟩ => rfl

/-- The reference's node scale at p: the row sum to the power -1/2 where it is above 0, else 0. -/
theorem ref_nodeScale (x0 : (⟨S8192x8192, .f32⟩ : BufTy).Contents (Elt Ideal)) (p : Fin 8192) :
    Read.val_main_v11 (F := Ideal) x0 (ix1 p) = nodeScale (rowSum x0 p) := by
  rw [Read.val_main_v11_apply, Read.val_main_v8_apply, Read.val_main_v10_apply, Read.val_main_call1_v1_apply, Read.val_main_call1_v0_apply,
    Read.val_main_cst_6_apply, Read.val_main_v7_apply, Read.val_main_cst_4_apply, Read.val_main_v9_apply, Read.val_main_cst_5_apply, ref_rowSum]
  simp only [Ideal.ofBits_def, Ideal.ofBits_zero_f32, Ideal.hostPowf_def, Ideal.cmpf_def]
  rfl

/-- The reference's hyperedge scale at k: 1 over the column sum where it is above 0, else 0. -/
theorem ref_edgeScale (x0 : (⟨S8192x8192, .f32⟩ : BufTy).Contents (Elt Ideal)) (k : Fin 8192) :
    Read.val_main_v6 (F := Ideal) x0 (ix1 k) = edgeScale (colSum x0 k) := by
  rw [Read.val_main_v6_apply, Read.val_main_v3_apply, Read.val_main_v5_apply, Read.val_main_call0_v1_apply, Read.val_main_call0_v0_apply,
    Read.val_main_cst_3_apply, Read.val_main_v2_apply, Read.val_main_cst_1_apply, Read.val_main_v4_apply, Read.val_main_cst_2_apply, ref_colSum]
  simp only [Ideal.ofBits_def, Ideal.ofBits_zero_f32, Ideal.hostDivf_def, Ideal.cmpf_def]
  rfl

/-- The node-scaled matrix at (p, k): H(p,k) · v(p). -/
theorem ref_nodeScaled (x0 : (⟨S8192x8192, .f32⟩ : BufTy).Contents (Elt Ideal)) (p k : Fin 8192) :
    Read.val_main_v14 (F := Ideal) x0 (ix2 p k) = x0 (ix2 p k) * nodeScale (rowSum x0 p) := by
  rw [Read.val_main_v14_apply, Read.val_main_v13_apply, Read.val_main_v12_apply, Ideal.mulf_def]
  have e : Read.idx_main_v12 (Read.idx_main_v13 (ix2 p k)) = ix1 p := funext fun a => Fin.ext (by
    match a with
    | ⟨0, _⟩ => rfl)
  rw [e, ref_nodeScale]

/-- The fully scaled matrix at (p, k): H(p,k) · v(p) · e(k). -/
theorem ref_scaled (x0 : (⟨S8192x8192, .f32⟩ : BufTy).Contents (Elt Ideal)) (p k : Fin 8192) :
    Read.val_main_v17 (F := Ideal) x0 (ix2 p k)
      = (x0 (ix2 p k) * nodeScale (rowSum x0 p)) * edgeScale (colSum x0 k) := by
  rw [Read.val_main_v17_apply, Read.val_main_v16_apply, Read.val_main_v15_apply, Ideal.mulf_def, ref_nodeScaled]
  have e : Read.idx_main_v15 (Read.idx_main_v16 (ix2 p k)) = ix1 k := funext fun a => Fin.ext (by
    match a with
    | ⟨0, _⟩ => rfl)
  rw [e, ref_edgeScale]

/-- The transposed node-scaled matrix at (k, q): H(q,k) · v(q). -/
theorem ref_transposed (x0 : (⟨S8192x8192, .f32⟩ : BufTy).Contents (Elt Ideal)) (k q : Fin 8192) :
    Read.val_main_v18 (F := Ideal) x0 (ix2 k q) = x0 (ix2 q k) * nodeScale (rowSum x0 q) := by
  rw [Read.val_main_v18_apply]
  have e : Read.idx_main_v18 (ix2 k q) = ix2 q k := funext fun a => Fin.ext (by
    match a with
    | ⟨0, _⟩ => rfl
    | ⟨1, _⟩ => rfl)
  rw [e, ref_nodeScaled]

/-- The reference's result is G: entry (p, q) is the contraction over k of the scaled matrix's row p with the
    transposed node-scaled matrix's column q. -/
theorem reference_is_G (x0 : (⟨Cert.ReferenceIdeal.S8192x8192, .f32⟩ : BufTy).Contents (Elt Ideal)) :
    Cert.ReferenceIdeal.Read.val_main_v19 (F := Ideal) x0 = G x0 := by
  funext i
  obtain ⟨p, q, rfl⟩ : ∃ (p q : Fin 8192), i = ix2 p q := ⟨i 0, i 1, eq_ix2 i⟩
  rw [Read.val_main_v19_apply]
  show _ = refEntry x0 p q
  unfold refEntry
  refine Finset.sum_congr rfl fun k _ => ?_
  have el : Read.lidx_main_v19 (ix2 p q) k = ix2 p k := funext fun a => Fin.ext (by
    match a with
    | ⟨0, _⟩ => rfl
    | ⟨1, _⟩ => rfl)
  have er : Read.ridx_main_v19 (ix2 p q) k = ix2 k q := funext fun a => Fin.ext (by
    match a with
    | ⟨0, _⟩ => rfl
    | ⟨1, _⟩ => rfl)
  rw [el, er, ref_scaled, ref_transposed]

end Cert.Hyper

end
-- ==== Proof.Finite.lean ====
/-
  Finiteness of the input.  The precondition says that every entry x of H satisfies |x| < +∞, the bound being the
  binary32 word of +∞; over the extended reals |x| is max x (-x), so neither x = +∞ nor x = -∞ (nor the junk value ⊥,
  which is -∞ here) passes, and what is left is a real number.
-/
import proofs.«170422_j16011638079612_2_alg».proof.Pre_finite_inputs
import Idealize.ShloMosaic.Lib.ReduceAll
import Idealize.ShloMosaic.Lib.ValueIdx
import Idealize.ShloMosaic.PureOps.Ideal

noncomputable section

namespace Cert.Hyper

open Idealize.ShloMosaic

/-- The rank-0 shape has one index. -/
instance subsingleton_scalar_idx : Subsingleton Cert.Pre_finite_inputs.S_.Idx :=
  ⟨fun a b => funext fun d => d.elim0⟩

/-- The binary32 word 0x7F800000 denotes +∞. -/
theorem infW_eq : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The precondition holds only of a matrix all of whose entries are real numbers. -/
theorem finite_of_pre [Cert.Pre_finite_inputs.Facts]
    (x : (⟨Cert.Pre_finite_inputs.S8192x8192, .f32⟩ : BufTy).Contents (Elt Ideal))
    (h : Cert.Pre_finite_inputs.fn (F := Ideal) x = fun _ => 1#1) : ∀ j, ∃ r : ℝ, x j = (r : EReal) := by
  intro j
  have h0 := congrFun h ValueIdx.ix0
  dsimp only [Cert.Pre_finite_inputs.fn] at h0
  have hj := Host.reduce_andi_all _ _ _ _ _ h0 j
  have hj' : Ideal.cmp .olt (max (x j) (-(x j))) (Ideal.ofBits .f32 0x7F800000#32) = 1#1 := hj
  rw [infW_eq] at hj'
  refine real_of_abs_lt_top (x j) ?_
  by_contra hlt
  have e : Ideal.cmp .olt (max (x j) (-(x j))) ⊤ = BitVec.ofBool (decide (max (x j) (-(x j)) < ⊤)) := rfl
  rw [e, decide_eq_false hlt] at hj'
  exact absurd hj' (by decide)

end Cert.Hyper

end
-- ==== Proof.lean ====
/-
  The claims of this certificate, for the hypergraph normalisation G = D_v^(-1/2) H D_e^(-1) Hᵀ D_v^(-1/2)
  (H an 8192 × 8192 incidence matrix, D_v and D_e the diagonals of its row and column sums, a reciprocal of a
  non-positive degree read as 0).

  The kernel computes G in two pallas_calls — one pass over H for the row and column sums, then a tiled product
  (H (H D_e)ᵀ accumulated over four K-tiles) scaled entrywise by v(p) · v(q), v = the diagonal of D_v^(-1/2) — with
  host lines between them; the reference scales H first and multiplies once.  Over the extended reals the two are
  the same number at every entry because every entry of H is finite (the precondition): then every degree and every
  scale is a real number, and on real numbers pulling v(p) · v(q) out of the sum over k is distributivity.
  The three frames: each program's run terminates, faults nowhere and leaves H as launched — for the kernel (read at
  words and at the extended reals alike) that is the run through both calls with the accumulator carried from one
  grid point to the next; for the reference, its straight-line run.  The ideal pass rewrote nothing.
-/
import proofs.«170422_j16011638079612_2_alg».proof.Defs
import proofs.«170422_j16011638079612_2_alg».proof.Proof.Gen.Kernel
import proofs.«170422_j16011638079612_2_alg».proof.Proof.Gen.KernelIdeal
import proofs.«170422_j16011638079612_2_alg».proof.Proof.Gen.ReferenceIdeal
import proofs.«170422_j16011638079612_2_alg».proof.Proof.Gen.Pre_finite_inputs
import proofs.«170422_j16011638079612_2_alg».proof.Proof.Gen.ReferenceIdeal.Run
import proofs.«170422_j16011638079612_2_alg».proof.Proof.Gen.ReferenceIdeal.Read
import proofs.«170422_j16011638079612_2_alg».proof.Proof.KRun
import proofs.«170422_j16011638079612_2_alg».proof.Proof.Run
import proofs.«170422_j16011638079612_2_alg».proof.Proof.Bridge
import proofs.«170422_j16011638079612_2_alg».proof.Proof.RefIsG
import proofs.«170422_j16011638079612_2_alg».proof.Proof.Finite
import Idealize.ShloMosaic.Adequacy
import Idealize.ShloMosaic.Init

noncomputable section

namespace Cert.Proof

open Idealize.ShloMosaic Idealize.ShloMosaic.TcCoe Idealize.SL.Sem

/-- The kernel, read at words: its run through both calls, the result dropped. -/
theorem frame_k : Cert.frame_Kernel := fun m ρ _ =>
  (θ_run Cert.Kernel.defs _ _).mono (fun _ h c => (h c).2) (Cert.Kernel.Hand.run_values (F := Bits) m ρ)

/-- The kernel, read at the extended reals: the same run. -/
theorem frame_ki : Cert.frame_KernelIdeal := fun m ρ _ =>
  (θ_run Cert.KernelIdeal.defs _ _).mono (fun _ h c => (h c).2) (Cert.KernelIdeal.Hand.run_values (F := Ideal) m ρ)

/-- The reference: its straight-line run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with G of the argument. -/
theorem algebraic : Cert.algebraic_KernelIdeal_ReferenceIdeal := by
  intro m ρ m' ρ' hpre hagree
  refine ⟨fun c => Cert.Hyper.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Hand.result_eq m c (Cert.Hyper.finite_of_pre _ (hpre c))), (h c).2⟩)
      (Cert.KernelIdeal.Hand.run_values (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.Hyper.reference_is_G, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
